-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v27 : BitVec 32 := Scalar.muli arg1 c400_i32
  let v28 : Index := Scalar.indexCast v27
  let c0_16 : Index := 0#32
  ![v28.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off2 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_12 : Index := 0#32
  ![v24.toNat, 0]
def k0_cond4 (i : grid0.Coords) : BitVec 1 :=
  let arg0 : BitVec 32 := BitVec.ofNat 32 (i 0).val
  let c1_i32_5 : BitVec 32 := 1#32
  let v11 : BitVec 1 := Scalar.cmpi .eq arg0 c1_i32_5
  let arg1 : BitVec 32 := BitVec.ofNat 32 (i 1).val
  let c24_i32 : BitVec 32 := 24#32
  let v12 : BitVec 1 := Scalar.cmpi .eq arg1 c24_i32
  let v13 : BitVec 1 := Scalar.andi v11 v12
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S10000x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  h_S400x16 : 0 < S400x16.numel
  shapeCasts_S400x16_S400x16 : S400x16.ShapeCasts S400x16
  reduces_S10000x16_S16 : S10000x16.Reduces [0] S16
  broadcasts_S1x16_S10000x16 : S1x16.Broadcasts S10000x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  k0_off2_inb : ∀ i : grid0.Coords, ∀ (k0_h3 : k0_cond3 i = 1#1), ∀ a, (k0_off2 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S10000x16.size a
  hwx0_6 : ∀ i : grid0.Coords, EltTy.bits .f32 = 32 ∨ (Rect.block (s := S10000x16) S10000x16.size (cc0_transform_6 i) (hinb0_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S10000x16.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) && !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S16x10000 : Shape := ⟨2, ![16, 10000]⟩
abbrev S16x1 : Shape := ⟨2, ![16, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S16x10000, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16x1, .f32⟩
  | .hbm, ⟨26, _⟩ => ⟨S16x10000, .f32⟩
  | .hbm, ⟨27, _⟩ => ⟨S16x10000, .f32⟩
  | .hbm, ⟨28, _⟩ => ⟨S16x10000, .f32⟩
  | .hbm, ⟨29, _⟩ => ⟨S_, .f32⟩
  | .hbm, ⟨30, _⟩ => ⟨S16, .f32⟩
  | .hbm, ⟨31, _⟩ => ⟨S16x1, .f32⟩
  | .hbm, ⟨32, _⟩ => ⟨S16x1, .f32⟩
  | .hbm, ⟨33, _⟩ => ⟨S16x10000, .f32⟩
  | .hbm, ⟨34, _⟩ => ⟨S16x10000, .f32⟩
  | .hbm, ⟨35, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v12 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  transposes_S10000x16_S16x10000_1_0 : S10000x16.Transposes [1, 0] S16x10000
  reducesTo_S16x10000_S16_d1 : S16x10000.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x10000_0_1 : S16x1.BroadcastsInDim S16x10000 (![0, 1] : Fin 2 → Fin S16x10000.rank)
  transposes_S16x10000_S10000x16_1_0 : S16x10000.Transposes [1, 0] S10000x16
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.BConds.lean ====
/-
  The four branches of the graph-convolution body, decided over the 2 × 25 grid.  Point t of the grid (t < 50, row-major)
  has phase t / 25 and row block t % 25.  The body computes X·W1 into the first scratch at the very first point, one
  400-row block of relu(A·s1 + b1)·W2 into the second scratch at every point of phase 0, one 400-row block of
  A·s2 + b2 into the output buffer at every point of phase 1, and the column-wise log-softmax of the whole output
  buffer at the last point.  The row offsets of the two block stores are 400 · (t % 25).
-/
import proofs.«120118_g652835029062_cont_sun_m_363_5_alg».proof.Proof.Gen.Kernel.Launch
import proofs.«120118_g652835029062_cont_sun_m_363_5_alg».proof.Proof.Gen.Kernel.Skeleton
import proofs.«120118_g652835029062_cont_sun_m_363_5_alg».proof.Proof.Gen.Kernel.Points
import proofs.«120118_g652835029062_cont_sun_m_363_5_alg».proof.Proof.Gen.Kernel.Frame
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

/-- The first branch is taken: phase 0 and row block 0. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val % 50 = 0 :=
  (by decide +kernel : ∀ t : Fin grid0.N, cond0 (grid0.coords t) ↔ t.val % 50 = 0)

/-- The second branch is taken: phase 0. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- The third branch is taken: phase 1. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The fourth branch is taken: the last point. -/
abbrev cond3 (i : grid0.Coords) : Prop := k0_cond4 i = 1#1
theorem hcond3 : ∀ t : Fin cfg0.N, cond3 (grid0.coords t) ↔ t.val % 50 = 49 :=
  (by decide +kernel : ∀ t : Fin grid0.N, cond3 (grid0.coords t) ↔ t.val % 50 = 49)

/-- The block stores start at row 400 · (t % 25), column 0. -/
theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 0] :=
  (by decide +kernel : ∀ t : Fin grid0.N, k0_off2 (grid0.coords t) = ![400 * (t.val % 25), 0])

/-- The output window is written back at the last point only, and every input but the adjacency block is fetched at the
    first point only; the adjacency block is fetched at every point (Points). -/
theorem N50 : cfg0.N = 50 := N_0

/-- Each window's current staging memref at point `t`, as the pipeline passes it to the body. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S10000x16 .f32 := win0_6.stage (cfg0.slots t 6)
abbrev hs6 (t : Fin cfg0.N) : (ms6 t).IsWhole := hstage0_6 ((cfg0.slots t 6).cast nbuf0_6)
/-- The two scratch operands: whole buffers of the kernel's own. -/
abbrev sc0 : Memref sig .tc .vmem S10000x16 .f32 := Memref.whole cc0_scratch0
abbrev sc1 : Memref sig .tc .vmem S10000x16 .f32 := Memref.whole cc0_scratch1

local notation "𝕄" => MT nD τ sig Unit (Elt F) ℕ (UR sig nD τ) ℕ

/-- The class invariant with the two scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.Kernel.Body

end
-- ==== Proof.BRunA.lean ====
/-
  The body at the first grid point: it stores X·W1 over the whole first scratch, whatever that held, and the first
  400-row block of relu(A·s1 + b1)·W2 into the second scratch over what that held; the output buffer is not touched.
-/
import proofs.«120118_g652835029062_cont_sun_m_363_5_alg».proof.Proof.BConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

local notation "𝕄" => MT nD τ sig Unit (Elt F) ℕ (UR sig nD τ) ℕ

set_option maxHeartbeats 1000000 in
/-- The stores of the first point as lists of pieces (newest first): `.1` those into the first scratch, `.2.1` those into
    the second, with the body's run from the inputs at their blocks, the output buffer at `y6`, the first scratch at
    anything and the second at `xs1`. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : cond0 i) (hc1 : cond1 i) (hc2 : ¬cond2 i) (hc3 : ¬cond3 i)
    (x0 : Vec F S10000x128 .f32) (x1 : Vec F S400x10000 .f32) (x2 : Vec F S128x16 .f32) (x3 : Vec F S1x16 .f32) (x4 : Vec F S16x16 .f32) (x5 : Vec F S1x16 .f32) (y6 : Vec F S10000x16 .f32) (xs1 : Vec F S10000x16 .f32) :
    Σ' (LS0 : List (View.Piece (Elt F) S10000x16 .f32)), { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6
                ∗ (∃ f, arg9.view.loc (c : Thread nD τ) ↦[arg9.view.set]{fullShare} arg9.view.writes (Elt F) f LS0)
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg10.eq_unread hf10
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    iexact H10

end Cert.Kernel.Body

end
-- ==== Proof.BRunB.lean ====
/-
  The body at a later point of phase 0 (row block k = t % 25, 0 < t < 25): it reads the first scratch whole and stores
  the 400-row block k of relu(A·s1 + b1)·W2 into the second scratch over what that held.
-/
import proofs.«120118_g652835029062_cont_sun_m_363_5_alg».proof.Proof.BRunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : cond1 i) (hc2 : ¬cond2 i) (hc3 : ¬cond3 i)
    (x1 : Vec F S400x10000 .f32) (x3 : Vec F S1x16 .f32) (x4 : Vec F S16x16 .f32) (xs0 : Vec F S10000x16 .f32) (xs1 : Vec F S10000x16 .f32) :
    { LS1 : List (View.Piece (Elt F) S10000x16 .f32) //
      ∀ (E : Set ℕ) (K : PUnit → sProp 𝕄),
        iprop(owns (c : Thread nD τ) arg3 fullShare x1 ∗ owns (c : Thread nD τ) arg5 fullShare x3 ∗ owns (c : Thread nD τ) arg6 fullShare x4 ∗ owns (c : Thread nD τ) arg9 fullShare xs0 ∗ owns (c : Thread nD τ) arg10 fullShare xs1
            ∗ (iprop(owns (c : Thread nD τ) arg3 fullShare x1 ∗ owns (c : Thread nD τ) arg5 fullShare x3 ∗ owns (c : Thread nD τ) arg6 fullShare x4 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f1, %hf1, H1⟩, ⟨%f3, %hf3, H3⟩, ⟨%f4, %hf4, H4⟩, ⟨%f9, %hf9, H9⟩, ⟨%f10, %hf10, H10⟩, Hk⟩
    obtain rfl := harg3.eq_unread hf1; obtain rfl := harg5.eq_unread hf3; obtain rfl := harg6.eq_unread hf4
    obtain rfl := harg9.eq_unread hf9; obtain rfl := harg10.eq_unread hf10
    sl_exec (disch := first | exact hc0 | exact hc1 | exact hc2 | exact hc3)
    sl_step
    iapply Hk
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H9]
    · iexists _; isplitr; · ipureintro; exact harg9.read_unread _
      iexact H9
    iexact H10

end Cert.Kernel.Body

end
-- ==== Proof.BRunC.lean ====
/-
  The body at a point of phase 1 but the last (row block k = t % 25): it reads the second scratch whole and stores the
  400-row block k of A·s2 + b2 into the output buffer over what that held.
-/
import proofs.«120118_g652835029062_cont_sun_m_363_5_alg».proof.Proof.BRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : ¬cond3 i)
    (x1 : Vec F S400x10000 .f32) (x5 : Vec F S1x16 .f32) (y6 : Vec F S10000x16 .f32) (xs1 : Vec F S10000x16 .f32) :
    { L6 : List (View.Piece (Elt F) S10000x16 .f32) //
      ∀ (E : Set ℕ) (K : PUnit → sProp 𝕄),
        iprop(owns (c : Thread nD τ) arg3 fullShare x1 ∗ owns (c : Thread nD τ) arg7 fullShare x5 ∗ owns (c : Thread nD τ) arg8 fullShare y6 ∗ owns (c : Thread nD τ) arg10 fullShare xs1
            ∗ (iprop(owns (c : Thread nD τ) arg3 fullShare x1 ∗ owns (c : Thread nD τ) arg7 fullShare x5 ∗ (arg8.view.loc (c : Thread nD τ) ↦[arg8.view.set]{fullShare} arg8.view.writes (Elt F) (harg8.unread y6) L6) ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f1, %hf1, H1⟩, ⟨%f5, %hf5, H5⟩, ⟨%f6, %hf6, H6⟩, ⟨%f10, %hf10, H10⟩, Hk⟩
    obtain rfl := harg3.eq_unread hf1; obtain rfl := harg7.eq_unread hf5
    obtain rfl := harg8.eq_unread hf6; obtain rfl := harg10.eq_unread hf10
    sl_exec (disch := first | exact hc0 | exact hc1 | exact hc2 | exact hc3)
    sl_step
    iapply Hk
    isplitl [H1]
    · iexists _; isplitr; · ipureintro; exact harg3.read_unread _
      iexact H1
    isplitl [H5]
    · iexists _; isplitr; · ipureintro; exact harg7.read_unread _
      iexact H5
    isplitl [H6]; · iexact H6
    iexists _; isplitr; · ipureintro; exact harg10.read_unread _
    iexact H10

end Cert.Kernel.Body

end
-- ==== Proof.BRunD.lean ====
/-
  The body at the last point: the last 400-row block of A·s2 + b2 into the output buffer, then the whole buffer read
  back and replaced by its column-wise log-softmax.
-/
import proofs.«120118_g652835029062_cont_sun_m_363_5_alg».proof.Proof.BRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : cond3 i)
    (x1 : Vec F S400x10000 .f32) (x5 : Vec F S1x16 .f32) (y6 : Vec F S10000x16 .f32) (xs1 : Vec F S10000x16 .f32) :
    { L6 : List (View.Piece (Elt F) S10000x16 .f32) //
      ∀ (E : Set ℕ) (K : PUnit → sProp 𝕄),
        iprop(owns (c : Thread nD τ) arg3 fullShare x1 ∗ owns (c : Thread nD τ) arg7 fullShare x5 ∗ owns (c : Thread nD τ) arg8 fullShare y6 ∗ owns (c : Thread nD τ) arg10 fullShare xs1
            ∗ (iprop(owns (c : Thread nD τ) arg3 fullShare x1 ∗ owns (c : Thread nD τ) arg7 fullShare x5 ∗ (arg8.view.loc (c : Thread nD τ) ↦[arg8.view.set]{fullShare} arg8.view.writes (Elt F) (harg8.unread y6) L6) ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f1, %hf1, H1⟩, ⟨%f5, %hf5, H5⟩, ⟨%f6, %hf6, H6⟩, ⟨%f10, %hf10, H10⟩, Hk⟩
    obtain rfl := harg3.eq_unread hf1; obtain rfl := harg7.eq_unread hf5
    obtain rfl := harg8.eq_unread hf6; obtain rfl := harg10.eq_unread hf10
    sl_exec (disch := first | exact hc0 | exact hc1 | exact hc2 | exact hc3)
    sl_step
    iapply Hk
    isplitl [H1]
    · iexists _; isplitr; · ipureintro; exact harg3.read_unread _
      iexact H1
    isplitl [H5]
    · iexists _; isplitr; · ipureintro; exact harg7.read_unread _
      iexact H5
    isplitl [H6]; · iexact H6
    iexists _; isplitr; · ipureintro; exact harg10.read_unread _
    iexact H10

end Cert.Kernel.Body

end
-- ==== Proof.BData.lean ====
/-
  What each case of the body leaves in the buffers it stores into, as plain functions of what it found there.
  A store of 400 whole rows at row offset o over contents Y leaves the payload on rows [o, o + 400) and Y elsewhere
  (`putRows`); a store of the whole buffer leaves its payload; and every whole-buffer load reads the buffer's contents.
-/
import proofs.«120118_g652835029062_cont_sun_m_363_5_alg».proof.Proof.BRunD
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

/-- Rows [o, o + 400) replaced by the 400 × 16 block `P`, the other rows of `Y` kept. -/
def putRows {α : Type} (o : ℕ) (P : S400x16.Idx → α) (Y : S10000x16.Idx → α) : S10000x16.Idx → α :=
  fun y => if h : o ≤ (y 0).val ∧ (y 0).val < o + 400 then P (ValueIdx.ix2 (n0 := 400) (n1 := 16) ⟨(y 0).val - o, by omega⟩ (y 1)) else Y y

theorem putRows_of_mem {α : Type} (o : ℕ) (P : S400x16.Idx → α) (Y : S10000x16.Idx → α) (y : S10000x16.Idx)
    (h : o ≤ (y 0).val ∧ (y 0).val < o + 400) :
    putRows o P Y y = P (ValueIdx.ix2 (n0 := 400) (n1 := 16) ⟨(y 0).val - o, by omega⟩ (y 1)) := dif_pos h

theorem putRows_of_not_mem {α : Type} (o : ℕ) (P : S400x16.Idx → α) (Y : S10000x16.Idx → α) (y : S10000x16.Idx)
    (h : ¬(o ≤ (y 0).val ∧ (y 0).val < o + 400)) : putRows o P Y y = Y y := dif_neg h

theorem zeros2 : (![0, 0] : Fin 2 → ℕ) = fun _ => 0 := funext fun a => by fin_cases a <;> rfl

/-- A store of rows [o, o + 400) into a whole buffer holding `Y`, read back. -/
theorem read_rows_over (a : Memref sig .tc .vmem S10000x16 .f32) (ha : a.IsWhole) (off : Fin 2 → ℕ)
    (inb : ∀ b, off b + S400x16.size b ≤ S10000x16.size b) (o : ℕ) (ho : off = ![o, 0])
    (P : S400x16.Idx → Elt F .f32) (Y : S10000x16.Idx → Elt F .f32) :
    a.view.read (Elt F) (a.view.writes (Elt F) (ha.unread Y)
      [(⟨Rect.unit (s := S10000x16) off S400x16.size inb, P⟩ : View.Piece (Elt F) S10000x16 .f32)]) = putRows o P Y := by
  funext y
  by_cases h : o ≤ (y 0).val ∧ (y 0).val < o + 400
  · rw [putRows_of_mem o P Y y h]
    exact View.read_writes_cons_rows_of_mem a.view _ inb P [] y _ ho
      (by show (y 0).val = o + ((y 0).val - o); omega) rfl
  · rw [putRows_of_not_mem o P Y y h]
    rw [View.read_writes_cons_rows_of_not_mem (W := 400) a.view _ inb P [] y ho rfl (by omega)]
    rw [View.writes_nil]
    exact congrFun (ha.read_unread Y) y

/-- A store of the whole buffer, read back, whatever was stored before. -/
theorem read_whole_over (a : Memref sig .tc .vmem S10000x16 .f32) (f : a.view.ty.Contents (Elt F))
    (inb : ∀ b, (![0, 0] : Fin 2 → ℕ) b + S10000x16.size b ≤ S10000x16.size b)
    (P : S10000x16.Idx → Elt F .f32) (L : List (View.Piece (Elt F) S10000x16 .f32)) :
    a.view.read (Elt F) (a.view.writes (Elt F) f
      ((⟨Rect.unit (s := S10000x16) ![0, 0] S10000x16.size inb, P⟩ : View.Piece (Elt F) S10000x16 .f32) :: L)) = P := by
  funext y
  exact View.read_writes_cons_unit_of_mem a.view f inb P L y y rfl (fun b => by
    fin_cases b
    · show (y 0).val = 0 + (y 0).val; omega
    · show (y 1).val = 0 + (y 1).val; omega)

/-- Case A leaves X·W1 in the first scratch … -/
theorem readA_s1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : cond0 i) (hc1 : cond1 i) (hc2 : ¬cond2 i) (hc3 : ¬cond3 i)
    (x0 : Vec F S10000x128 .f32) (x1 : Vec F S400x10000 .f32) (x2 : Vec F S128x16 .f32) (x3 : Vec F S1x16 .f32) (x4 : Vec F S16x16 .f32) (x5 : Vec F S1x16 .f32) (y6 : Vec F S10000x16 .f32) (xs1 : Vec F S10000x16 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 hc3 x0 x1 x2 x3 x4 x5 y6 xs1).1)
      = k0_pay1 x0 x2 := by
  unfold runA; dsimp only; unfold runA.sl.H9_1
  simp only [View.readAt_eq_ld, harg2.read_unread, harg4.read_unread, View.ld_unit_zero (S := S10000x128) zeros2, View.ld_unit_zero (S := S128x16) zeros2]
  exact read_whole_over arg9 f _ _ []

/-- … and its block of the second layer's right factor in the second, over what that held. -/
theorem readA_s2 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : cond0 i) (hc1 : cond1 i) (hc2 : ¬cond2 i) (hc3 : ¬cond3 i)
    (x0 : Vec F S10000x128 .f32) (x1 : Vec F S400x10000 .f32) (x2 : Vec F S128x16 .f32) (x3 : Vec F S1x16 .f32) (x4 : Vec F S16x16 .f32) (x5 : Vec F S1x16 .f32) (y6 : Vec F S10000x16 .f32) (xs1 : Vec F S10000x16 .f32) (o : ℕ) (ho : k0_off1 i = ![o, 0]) :
    arg10.view.read (Elt F) (arg10.view.writes (Elt F) (harg10.unread xs1) (runA c i arg2 harg2 arg3 harg3 arg4 harg4 arg5 harg5 arg6 harg6 arg7 harg7 arg8 harg8 arg9 harg9 arg10 harg10 hc0 hc1 hc2 hc3 x0 x1 x2 x3 x4 x5 y6 xs1).2.1)
      = putRows o (k0_pay2 x1 (k0_pay1 x0 x2) x3 x4) xs1 := by
  unfold runA; dsimp only; unfold runA.sl.v17 runA.sl.H9_1
  simp only [View.readAt_eq_ld, harg2.read_unread, harg3.read_unread, harg4.read_unread, harg5.read_unread, harg6.read_unread,
    View.ld_unit_zero (S := S10000x128) zeros2, View.ld_unit_zero (S := S128x16) zeros2, View.ld_unit_zero (S := S400x10000) zeros2,
    View.ld_unit_zero (S := S1x16) zeros2, View.ld_unit_zero (S := S16x16) zeros2, View.readCov_unit_zero (S := S10000x16) _ zeros2]
  exact read_rows_over arg10 harg10 _ _ o ho _ _

/-- Case B leaves its block in the second scratch, over what that held. -/
theorem readB_s2 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : cond1 i) (hc2 : ¬cond2 i) (hc3 : ¬cond3 i)
    (x1 : Vec F S400x10000 .f32) (x3 : Vec F S1x16 .f32) (x4 : Vec F S16x16 .f32) (xs0 : Vec F S10000x16 .f32) (xs1 : Vec F S10000x16 .f32)
    (o : ℕ) (ho : k0_off1 i = ![o, 0]) :
    arg10.view.read (Elt F) (arg10.view.writes (Elt F) (harg10.unread xs1) (runB c i arg2 harg2 arg3 harg3 arg4 harg4 arg5 harg5 arg6 harg6 arg7 harg7 arg8 harg8 arg9 harg9 arg10 harg10 hc0 hc1 hc2 hc3 x1 x3 x4 xs0 xs1).1)
      = putRows o (k0_pay2 x1 xs0 x3 x4) xs1 := by
  unfold runB; dsimp only
  simp only [View.readAt_eq_ld, harg3.read_unread, harg9.read_unread, harg5.read_unread, harg6.read_unread,
    View.ld_unit_zero (S := S400x10000) zeros2, View.ld_unit_zero (S := S10000x16) zeros2,
    View.ld_unit_zero (S := S1x16) zeros2, View.ld_unit_zero (S := S16x16) zeros2]
  exact read_rows_over arg10 harg10 _ _ o ho _ _

/-- Case C leaves its block of the second layer in the output buffer, over what that held. -/
theorem readC_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : ¬cond3 i)
    (x1 : Vec F S400x10000 .f32) (x5 : Vec F S1x16 .f32) (y6 : Vec F S10000x16 .f32) (xs1 : Vec F S10000x16 .f32)
    (o : ℕ) (ho : k0_off2 i = ![o, 0]) :
    arg8.view.read (Elt F) (arg8.view.writes (Elt F) (harg8.unread y6) (runC c i arg2 harg2 arg3 harg3 arg4 harg4 arg5 harg5 arg6 harg6 arg7 harg7 arg8 harg8 arg9 harg9 arg10 harg10 hc0 hc1 hc2 hc3 x1 x5 y6 xs1).1)
      = putRows o (k0_pay3 x1 xs1 x5) y6 := by
  unfold runC; dsimp only
  simp only [View.readAt_eq_ld, harg3.read_unread, harg10.read_unread, harg7.read_unread,
    View.ld_unit_zero (S := S400x10000) zeros2, View.ld_unit_zero (S := S10000x16) zeros2, View.ld_unit_zero (S := S1x16) zeros2]
  exact read_rows_over arg8 harg8 _ _ o ho _ _

/-- Case D leaves the column-wise log-softmax of the buffer with its last block stored. -/
theorem readD_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : cond3 i)
    (x1 : Vec F S400x10000 .f32) (x5 : Vec F S1x16 .f32) (y6 : Vec F S10000x16 .f32) (xs1 : Vec F S10000x16 .f32)
    (o : ℕ) (ho : k0_off2 i = ![o, 0]) :
    arg8.view.read (Elt F) (arg8.view.writes (Elt F) (harg8.unread y6) (runD c i arg2 harg2 arg3 harg3 arg4 harg4 arg5 harg5 arg6 harg6 arg7 harg7 arg8 harg8 arg9 harg9 arg10 harg10 hc0 hc1 hc2 hc3 x1 x5 y6 xs1).1)
      = k0_pay4 (putRows o (k0_pay3 x1 xs1 x5) y6) := by
  unfold runD; dsimp only; unfold runD.sl.v16 runD.sl.H6_1
  rw [read_whole_over]
  congr 1
  simp only [View.readAt_eq_ld, harg3.read_unread, harg10.read_unread, harg7.read_unread,
    View.ld_unit_zero (S := S400x10000) zeros2, View.ld_unit_zero (S := S10000x16) zeros2, View.ld_unit_zero (S := S1x16) zeros2]
  exact read_rows_over arg8 harg8 _ _ o ho _ _

end Cert.Kernel.Body

end
-- ==== Proof.BDat.lean ====
/-
  The proof data of the one pipeline, relational in the output window.  With k = t % 25 the row block of point t:
    s1      = X·W1                                     (first scratch, after the first point)
    s2      = the rows relu(A·s1 + b1)·W2, block k written at point k of phase 0
    h2      = the rows A·s2 + b2, block k written at point 25 + k
    result  = the column-wise log-softmax of h2        (stored over the whole output buffer at the last point)
  Before point n ≥ 1 the first scratch holds s1 and the second agrees with s2 on its first 400·min(n, 25) rows;
  the output buffer, found at a point t of phase 1, agrees with h2 on its first 400·(t − 25) rows.
-/
import proofs.«120118_g652835029062_cont_sun_m_363_5_alg».proof.Proof.BData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The point of the grid at position `k`. -/
def pt (k : ℕ) (hk : k < 50) : Fin cfg0.N := ⟨k, lt_of_lt_of_eq hk N50.symm⟩

theorem val_lt (t : Fin cfg0.N) : t.val < 50 := lt_of_lt_of_eq t.isLt N50

/-- X·W1. -/
def S1 (c : Dev nD) : Vec F S10000x16 .f32 := k0_pay1 (iblk m c 0 (pt 0 (by omega))) (iblk m c 2 (pt 0 (by omega)))

/-- The block of relu(A·s1 + b1)·W2 that point `t` computes. -/
def s2blk (c : Dev nD) (t : Fin cfg0.N) : S400x16.Idx → Elt F .f32 := k0_pay2 (iblk m c 1 t) (S1 m c) (iblk m c 3 t) (iblk m c 4 t)

/-- relu(A·s1 + b1)·W2, row by row: row r is row r % 400 of the block of point r / 400. -/
def S2 (c : Dev nD) : Vec F S10000x16 .f32 := fun y =>
  s2blk m c (pt ((y 0).val / 400) (by have := ValueIdx.idx2_lt0 y; omega))
    (ValueIdx.ix2 (n0 := 400) (n1 := 16) ⟨(y 0).val % 400, Nat.mod_lt _ (by omega)⟩ (y 1))

/-- The block of A·s2 + b2 that point `t` computes. -/
def h2blk (c : Dev nD) (t : Fin cfg0.N) : S400x16.Idx → Elt F .f32 := k0_pay3 (iblk m c 1 t) (S2 m c) (iblk m c 5 t)

/-- A·s2 + b2, row by row: row r is row r % 400 of the block of point 25 + r / 400. -/
def H2 (c : Dev nD) : Vec F S10000x16 .f32 := fun y =>
  h2blk m c (pt (25 + (y 0).val / 400) (by have := ValueIdx.idx2_lt0 y; omega))
    (ValueIdx.ix2 (n0 := 400) (n1 := 16) ⟨(y 0).val % 400, Nat.mod_lt _ (by omega)⟩ (y 1))

/-- The kernel's result. -/
def Out (c : Dev nD) : Vec F S10000x16 .f32 := k0_pay4 (H2 m c)

/-- Two contents agree on the rows below `r`. -/
def AgreeBelow {α : Type} (r : ℕ) (d g : S10000x16.Idx → α) : Prop := ∀ y : S10000x16.Idx, (y 0).val < r → d y = g y

theorem agree_zero {α : Type} (d g : S10000x16.Idx → α) : AgreeBelow 0 d g := fun y h => absurd h (Nat.not_lt_zero _)

theorem agree_all {α : Type} (d g : S10000x16.Idx → α) (h : AgreeBelow 10000 d g) : d = g :=
  funext fun y => h y (ValueIdx.idx2_lt0 y)

/-- Storing block `k` of `g` over contents that agree with `g` below row 400·k gives contents that agree below 400·(k + 1). -/
theorem agree_step {α : Type} (g : S10000x16.Idx → α) (P : S400x16.Idx → α) (k : ℕ) (Y : S10000x16.Idx → α)
    (hP : ∀ (y : S10000x16.Idx) (h : 400 * k ≤ (y 0).val ∧ (y 0).val < 400 * k + 400),
      P (ValueIdx.ix2 (n0 := 400) (n1 := 16) ⟨(y 0).val - 400 * k, by omega⟩ (y 1)) = g y)
    (hY : AgreeBelow (400 * k) Y g) : AgreeBelow (400 * (k + 1)) (putRows (400 * k) P Y) g := by
  intro y hy
  by_cases h : 400 * k ≤ (y 0).val ∧ (y 0).val < 400 * k + 400
  · rw [putRows_of_mem _ _ _ _ h]; exact hP y h
  · rw [putRows_of_not_mem _ _ _ _ h]; exact hY y (by omega)

/-- Block `k` of s2 is what point `k` computes. -/
theorem s2blk_eq (c : Dev nD) (t : Fin cfg0.N) (y : S10000x16.Idx) (h : 400 * t.val ≤ (y 0).val ∧ (y 0).val < 400 * t.val + 400) :
    s2blk m c t (ValueIdx.ix2 (n0 := 400) (n1 := 16) ⟨(y 0).val - 400 * t.val, by omega⟩ (y 1)) = S2 m c y := by
  unfold S2
  have e : pt ((y 0).val / 400) (by have := ValueIdx.idx2_lt0 y; omega) = t := Fin.ext (by show (y 0).val / 400 = t.val; omega)
  rw [e]
  congr 2
  apply Fin.ext
  show (y 0).val - 400 * t.val = (y 0).val % 400
  omega

/-- Block `k` of h2 is what point `25 + k` computes. -/
theorem h2blk_eq (c : Dev nD) (t : Fin cfg0.N) (k : ℕ) (hk : t.val = 25 + k) (y : S10000x16.Idx) (h : 400 * k ≤ (y 0).val ∧ (y 0).val < 400 * k + 400) :
    h2blk m c t (ValueIdx.ix2 (n0 := 400) (n1 := 16) ⟨(y 0).val - 400 * k, by omega⟩ (y 1)) = H2 m c y := by
  unfold H2
  have e : pt (25 + (y 0).val / 400) (by have := ValueIdx.idx2_lt0 y; omega) = t := Fin.ext (by show 25 + (y 0).val / 400 = t.val; omega)
  rw [e]
  congr 2
  apply Fin.ext
  show (y 0).val - 400 * k = (y 0).val % 400
  omega

/-- What the output window's buffer may hold after point `t`, given what it held before. -/
def After6 (c : Dev nD) (t : Fin cfg0.N) (Y X : S10000x16.Idx → Elt F .f32) : Prop :=
  if t.val < 25 then X = Y
  else if t.val < 49 then X = putRows (400 * (t.val % 25)) (h2blk m c t) Y
  else X = k0_pay4 (putRows (400 * (t.val % 25)) (h2blk m c t) Y)

/-- The invariant before position `n`: the class's before the first point; then the first scratch at s1, the second
    agreeing with s2 on the rows written so far, and the generator register at some state. -/
def Phi (c : Dev nD) : ℕ → sProp 𝕄
  | 0 => Pipeline.ΦA spec0 c
  | n + 1 => iprop(iprop(owns (c : Thread nD τ) sc0 fullShare (S1 m c)
      ∗ (∃ d, ⌜AgreeBelow (400 * min (n + 1) 25) d (S2 m c)⌝ ∗ owns (c : Thread nD τ) sc1 fullShare d)) ∗ (∃ r, prngReg c r))

theorem Phi_pos (c : Dev nD) (n : ℕ) (hz : n ≠ 0) :
    Phi m c n = iprop(iprop(owns (c : Thread nD τ) sc0 fullShare (S1 m c)
      ∗ (∃ d, ⌜AgreeBelow (400 * min n 25) d (S2 m c)⌝ ∗ owns (c : Thread nD τ) sc1 fullShare d)) ∗ (∃ r, prngReg c r)) := by
  cases n with
  | zero => exact absurd rfl hz
  | succ n => rfl

/-- The proof data: the arrays as the region finds them; every input left as found; the output window by `After6`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => After6 m c t Y X
  Φ t := Phi m c t.val
  q _ := fullShare
  owed _ := 0

theorem A_eq (c : Dev nD) (w : Fin cfg0.W) : (rdat m c).A w = V m c (Pipeline.arrRef spec0 w) := by dsimp only [rdat]

theorem after0 (c : Dev nD) (t : Fin cfg0.N) (Y X) : (rdat m c).after 0 t Y X ↔ X = Y := by dsimp only [rdat]; exact Iff.rfl
theorem after1 (c : Dev nD) (t : Fin cfg0.N) (Y X) : (rdat m c).after 1 t Y X ↔ X = Y := by dsimp only [rdat]; exact Iff.rfl
theorem after2 (c : Dev nD) (t : Fin cfg0.N) (Y X) : (rdat m c).after 2 t Y X ↔ X = Y := by dsimp only [rdat]; exact Iff.rfl
theorem after3 (c : Dev nD) (t : Fin cfg0.N) (Y X) : (rdat m c).after 3 t Y X ↔ X = Y := by dsimp only [rdat]; exact Iff.rfl
theorem after4 (c : Dev nD) (t : Fin cfg0.N) (Y X) : (rdat m c).after 4 t Y X ↔ X = Y := by dsimp only [rdat]; exact Iff.rfl
theorem after5 (c : Dev nD) (t : Fin cfg0.N) (Y X) : (rdat m c).after 5 t Y X ↔ X = Y := by dsimp only [rdat]; exact Iff.rfl
theorem after6 (c : Dev nD) (t : Fin cfg0.N) (Y X) : (rdat m c).after 6 t Y X ↔ After6 m c t Y X := by dsimp only [rdat]; exact Iff.rfl

/-- An input's buffer holds its block wherever the body is handed it. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after0 m c t Y X).mp h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after1 m c t Y X).mp h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => (after2 m c t Y X).mp h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => (after3 m c t Y X).mp h) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => (after4 m c t Y X).mp h) t Y h
  rw [hd]; unfold RDat.fetched RDat.blockOf iblk; rw [A_eq]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => (after5 m c t Y X).mp h) t Y h
  rw [hd]; unfold RDat.fetched RDat.blockOf iblk; rw [A_eq]; try rfl

/-- The output window is never fetched. -/
theorem fetch6 : ∀ t : Fin cfg0.N, (cfg0.win 6).fetch t = false :=
  (by decide +kernel : ∀ t : Fin grid0.N, win0_6.fetch t = false)

/-- The output buffer, wherever the body is handed it, agrees with h2 on the rows of the blocks stored so far. -/
theorem finds6 (c : Dev nD) : ∀ (n : ℕ) (t : Fin cfg0.N), t.val = n → ∀ Y, (rdat m c).Finds 6 t Y → AgreeBelow (400 * (n - 25)) Y (H2 m c) := by
  intro n
  induction n with
  | zero => intro t _ Y _; exact agree_zero _ _
  | succ n ih =>
    intro t ht Y hY
    by_cases h25 : n + 1 ≤ 25
    · rw [show n + 1 - 25 = 0 by omega]; exact agree_zero _ _
    · have hN := val_lt t
      rcases ((rdat m c).finds_of_pos (fetch6 t) (by omega) Y).mp hY with hfl | ⟨Y', hY', hR⟩
      · exfalso
        have := (flush0_6 ⟨t.val - 1, Nat.lt_of_le_of_lt (Nat.sub_le _ _) t.isLt⟩).mp hfl
        simp only at this; omega
      · have hR' := (after6 m c _ Y' Y).mp hR
        have ih' := ih ⟨t.val - 1, Nat.lt_of_le_of_lt (Nat.sub_le _ _) t.isLt⟩ (by simp only; omega) Y' hY'
        unfold After6 at hR'
        simp only at hR'
        rw [if_neg (by omega), if_pos (by omega)] at hR'
        rw [hR', show (t.val - 1) % 25 = n - 25 by omega, show n + 1 - 25 = (n - 25) + 1 by omega]
        exact agree_step _ _ _ _ (fun y h => h2blk_eq m c _ (n - 25) (by simp only; omega) y h) ih'

end Cert.Kernel.Body

end
-- ==== Proof.BBody.lean ====
/-
  The body obligation: at every grid point, from the invariant and the buffers as the body may find them, the body
  runs to the invariant of the next point and leaves every input buffer as found and the output buffer in the
  relation of its case.
-/
import proofs.«120118_g652835029062_cont_sun_m_363_5_alg».proof.Proof.BDat

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem Phi_cast (c : Dev nD) (t : Fin cfg0.N) : (rdat m c).Φ t.castSucc = Phi m c t.val := by
  dsimp only [rdat]; simp only [Fin.coe_castSucc]
theorem Phi_succ (c : Dev nD) (t : Fin cfg0.N) : (rdat m c).Φ t.succ = Phi m c (t.val + 1) := by
  dsimp only [rdat]; simp only [Fin.val_succ]

/-- One more block of s2. -/
theorem s2_step (c : Dev nD) (t : Fin cfg0.N) (ht : t.val < 25) (d : S10000x16.Idx → Elt F .f32)
    (hd : AgreeBelow (400 * t.val) d (S2 m c)) :
    AgreeBelow (400 * min (t.val + 1) 25) (putRows (400 * (t.val % 25)) (s2blk m c t) d) (S2 m c) := by
  rw [show min (t.val + 1) 25 = t.val + 1 by omega, show t.val % 25 = t.val by omega]
  exact agree_step _ _ _ _ (fun y h => s2blk_eq m c t y h) hd

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0) ∗ owns (c : Thread nD τ) (ms1 t) fullShare (Y 1)
    ∗ owns (c : Thread nD τ) (ms2 t) fullShare (Y 2) ∗ owns (c : Thread nD τ) (ms3 t) fullShare (Y 3)
    ∗ owns (c : Thread nD τ) (ms4 t) fullShare (Y 4) ∗ owns (c : Thread nD τ) (ms5 t) fullShare (Y 5)
    ∗ owns (c : Thread nD τ) (ms6 t) fullShare (Y 6))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X))

set_option maxHeartbeats 4000000 in
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have h6 := finds6 m c t.val t rfl (Y 6) (hY 6)
  have hN := val_lt t
  unfold bodyPre bodyPost bodyAt0
  rw [e0, e1, e2, e3, e4, e5]
  rw [show (rdat m c).owesAt () t.succ = (rdat m c).owesAt () t.castSucc from rfl]
  rw [Phi_cast, Phi_succ, Phi_pos m c (t.val + 1) (Nat.succ_ne_zero _)]
  by_cases h0 : t.val % 50 = 0
  · -- the first point
    have hc0 := (hcond0 t).mpr h0
    have hc1 := (hcond1 t).mpr (show t.val < 25 by omega)
    have hc2 : ¬cond2 (grid0.coords t) := fun h => absurd ((hcond2 t).mp h) (by omega)
    have hc3 : ¬cond3 (grid0.coords t) := fun h => absurd ((hcond3 t).mp h) (by omega)
    have htz : t.val = 0 := by omega
    have ht0 : t = pt 0 (by omega) := Fin.ext htz
    rw [show Phi m c t.val = Pipeline.ΦA spec0 c from by rw [htz]; rfl, PhiA_eq]
    iintro ⟨⟨⟨⟨%d0, HS0⟩, ⟨%d1, HS1⟩⟩, Hg⟩, Ho, H0, H1, H2, H3, H4, H5, H6⟩
    iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 0 t) (iblk m c 1 t) (iblk m c 2 t) (iblk m c 3 t) (iblk m c 4 t) (iblk m c 5 t) (Y 6) d1).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexact HS1
    iintro ⟨H0, H1, H2, H3, H4, H5, H6, ⟨%f9, HS0⟩, HS1⟩
    isplitl [HS0 HS1 Hg]
    · isplitl [HS0 HS1]
      · isplitl [HS0]
        · unfold owns; iexists _; isplitr
          swap; · iexact HS0
          ipureintro
          rw [readA_s1]; unfold S1; rw [← ht0]
        · iexists (putRows (400 * (t.val % 25)) (s2blk m c t) d1); isplitr
          · ipureintro; exact s2_step m c t (by omega) d1 (by rw [htz]; exact agree_zero _ _)
          unfold owns; iexists _; isplitr
          swap; · iexact HS1
          ipureintro
          rw [readA_s2 c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ _ _ _ _ (400 * (t.val % 25)) (off1_eq t)]
          unfold s2blk S1; rw [← ht0]
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    isplitl [H5]
    · iexists _; isplitr; · ipureintro; exact (after5 m c t _ _).mpr rfl
      iexact H5
    iexists (Y 6); isplitr
    · ipureintro; refine (after6 m c t _ _).mpr ?_; unfold After6; rw [if_pos (by omega)]
    iexact H6
  · have hz : t.val ≠ 0 := fun h => h0 (by omega)
    rw [Phi_pos m c t.val hz]
    have hc0 : ¬cond0 (grid0.coords t) := fun h => h0 ((hcond0 t).mp h)
    by_cases h1 : t.val < 25
    · -- a later point of phase 0
      have hc1 := (hcond1 t).mpr h1
      have hc2 : ¬cond2 (grid0.coords t) := fun h => absurd ((hcond2 t).mp h) (by omega)
      have hc3 : ¬cond3 (grid0.coords t) := fun h => absurd ((hcond3 t).mp h) (by omega)
      iintro ⟨⟨⟨HS0, ⟨%d, %hd, HS1⟩⟩, Hg⟩, Ho, H0, H1, H2, H3, H4, H5, H6⟩
      iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 1 t) (iblk m c 3 t) (iblk m c 4 t) (S1 m c) d).2 Set.univ _)
      isplitl [H1]; · iexact H1
      isplitl [H3]; · iexact H3
      isplitl [H4]; · iexact H4
      isplitl [HS0]; · iexact HS0
      isplitl [HS1]; · iexact HS1
      iintro ⟨H1, H3, H4, HS0, HS1⟩
      isplitl [HS0 HS1 Hg]
      · isplitl [HS0 HS1]
        · isplitl [HS0]; · iexact HS0
          iexists (putRows (400 * (t.val % 25)) (s2blk m c t) d); isplitr
          · ipureintro; exact s2_step m c t h1 d (by rwa [show min t.val 25 = t.val by omega] at hd)
          unfold owns; iexists _; isplitr
          swap; · iexact HS1
          ipureintro
          exact readB_s2 c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ _ (400 * (t.val % 25)) (off1_eq t)
        iexact Hg
      isplitl [Ho]; · iexact Ho
      isplitl [H0]
      · iexists _; isplitr; · ipureintro; exact (after0 m c t _ _).mpr rfl
        iexact H0
      isplitl [H1]
      · iexists _; isplitr; · ipureintro; exact (after1 m c t _ _).mpr rfl
        iexact H1
      isplitl [H2]
      · iexists _; isplitr; · ipureintro; exact (after2 m c t _ _).mpr rfl
        iexact H2
      isplitl [H3]
      · iexists _; isplitr; · ipureintro; exact (after3 m c t _ _).mpr rfl
        iexact H3
      isplitl [H4]
      · iexists _; isplitr; · ipureintro; exact (after4 m c t _ _).mpr rfl
        iexact H4
      isplitl [H5]
      · iexists _; isplitr; · ipureintro; exact (after5 m c t _ _).mpr rfl
        iexact H5
      iexists (Y 6); isplitr
      · ipureintro; refine (after6 m c t _ _).mpr ?_; unfold After6; rw [if_pos h1]
      iexact H6
    · have hc1 : ¬cond1 (grid0.coords t) := fun h => h1 ((hcond1 t).mp h)
      have hc2 := (hcond2 t).mpr (show 25 ≤ t.val by omega)
      by_cases h3 : t.val % 50 = 49
      · -- the last point
        have hc3 := (hcond3 t).mpr h3
        iintro ⟨⟨⟨HS0, ⟨%d, %hd, HS1⟩⟩, Hg⟩, Ho, H0, H1, H2, H3, H4, H5, H6⟩
        obtain rfl : d = S2 m c := agree_all _ _ (by rwa [show 400 * min t.val 25 = 10000 by omega] at hd)
        iapply ((runD c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 1 t) (iblk m c 5 t) (Y 6) (S2 m c)).2 Set.univ _)
        isplitl [H1]; · iexact H1
        isplitl [H5]; · iexact H5
        isplitl [H6]; · iexact H6
        isplitl [HS1]; · iexact HS1
        iintro ⟨H1, H5, H6, HS1⟩
        isplitl [HS0 HS1 Hg]
        · isplitl [HS0 HS1]
          · isplitl [HS0]; · iexact HS0
            iexists (S2 m c); isplitr
            · ipureintro; exact fun y _ => rfl
            iexact HS1
          iexact Hg
        isplitl [Ho]; · iexact Ho
        isplitl [H0]
        · iexists _; isplitr; · ipureintro; exact (after0 m c t _ _).mpr rfl
          iexact H0
        isplitl [H1]
        · iexists _; isplitr; · ipureintro; exact (after1 m c t _ _).mpr rfl
          iexact H1
        isplitl [H2]
        · iexists _; isplitr; · ipureintro; exact (after2 m c t _ _).mpr rfl
          iexact H2
        isplitl [H3]
        · iexists _; isplitr; · ipureintro; exact (after3 m c t _ _).mpr rfl
          iexact H3
        isplitl [H4]
        · iexists _; isplitr; · ipureintro; exact (after4 m c t _ _).mpr rfl
          iexact H4
        isplitl [H5]
        · iexists _; isplitr; · ipureintro; exact (after5 m c t _ _).mpr rfl
          iexact H5
        iexists (k0_pay4 (putRows (400 * (t.val % 25)) (h2blk m c t) (Y 6))); isplitr
        · ipureintro; refine (after6 m c t _ _).mpr ?_; unfold After6; rw [if_neg h1, if_neg (by omega)]
        unfold owns; iexists _; isplitr
        swap; · iexact H6
        ipureintro
        exact readD_out c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ (400 * (t.val % 25)) (off2_eq t)
      · -- a point of phase 1 but the last
        have hc3 : ¬cond3 (grid0.coords t) := fun h => h3 ((hcond3 t).mp h)
        iintro ⟨⟨⟨HS0, ⟨%d, %hd, HS1⟩⟩, Hg⟩, Ho, H0, H1, H2, H3, H4, H5, H6⟩
        obtain rfl : d = S2 m c := agree_all _ _ (by rwa [show 400 * min t.val 25 = 10000 by omega] at hd)
        iapply ((runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 1 t) (iblk m c 5 t) (Y 6) (S2 m c)).2 Set.univ _)
        isplitl [H1]; · iexact H1
        isplitl [H5]; · iexact H5
        isplitl [H6]; · iexact H6
        isplitl [HS1]; · iexact HS1
        iintro ⟨H1, H5, H6, HS1⟩
        isplitl [HS0 HS1 Hg]
        · isplitl [HS0 HS1]
          · isplitl [HS0]; · iexact HS0
            iexists (S2 m c); isplitr
            · ipureintro; exact fun y _ => rfl
            iexact HS1
          iexact Hg
        isplitl [Ho]; · iexact Ho
        isplitl [H0]
        · iexists _; isplitr; · ipureintro; exact (after0 m c t _ _).mpr rfl
          iexact H0
        isplitl [H1]
        · iexists _; isplitr; · ipureintro; exact (after1 m c t _ _).mpr rfl
          iexact H1
        isplitl [H2]
        · iexists _; isplitr; · ipureintro; exact (after2 m c t _ _).mpr rfl
          iexact H2
        isplitl [H3]
        · iexists _; isplitr; · ipureintro; exact (after3 m c t _ _).mpr rfl
          iexact H3
        isplitl [H4]
        · iexists _; isplitr; · ipureintro; exact (after4 m c t _ _).mpr rfl
          iexact H4
        isplitl [H5]
        · iexists _; isplitr; · ipureintro; exact (after5 m c t _ _).mpr rfl
          iexact H5
        iexists (putRows (400 * (t.val % 25)) (h2blk m c t) (Y 6)); isplitr
        · ipureintro; refine (after6 m c t _ _).mpr ?_; unfold After6; rw [if_neg h1, if_pos (by omega)]
        unfold owns; iexists _; isplitr
        swap; · iexact H6
        ipureintro
        exact readC_out c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ (400 * (t.val % 25)) (off2_eq t)

/-- The library's body obligation, at every point. -/
theorem body_obligation (c : Dev nD) : (rdat (F := F) m c).BodyObligation (defs₀ (F := F)) Variants.none () Set.univ := fun t Y hY => by
  rw [bigSep_W0, bigSep_W0]
  exact sound_body m c t Y hY

end Cert.Kernel.Body

end
-- ==== Proof.BRun.lean ====
/-
  The run of the whole program: every weakly fair execution terminates without a fault, the argument arrays end as
  launched, and the result array ends holding the column-wise log-softmax of h2: the output window is written back
  once, after the last point, and its block is the whole array.
-/
import proofs.«120118_g652835029062_cont_sun_m_363_5_alg».proof.Proof.BBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_eq (c : Dev nD) (w : Fin cfg0.W) : (rdat m c).share w = fullShare := by
  unfold RDat.share; split <;> rfl

theorem hin (c : Dev nD) : Pipeline.ΦA spec0 c ⊢ (rdat m c).Φ 0 := by
  rw [show (rdat m c).Φ 0 = Pipeline.ΦA spec0 c from rfl]

theorem hout (c : Dev nD) : (rdat m c).Φ (Fin.last cfg0.N) ⊢ Pipeline.ΦA spec0 c := by
  rw [show (rdat m c).Φ (Fin.last cfg0.N) = Phi m c cfg0.N from rfl, Phi_pos m c _ (by rw [N50]; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates, nothing faulting, with every array of the pipeline at some contents
    the proof data allows after every write-back and every other unscoped buffer as the region found it. -/
theorem run_main : θ_run defs (onTc (τ := τ) (main (F := F))) (s₀ m ρ) (RDat.FramePost cfg0 (rdat m) (V m)) :=
  RDat.θ_run_frame_track cfgs (0 : Fin 1) launch0 defs₀ Variants.none (rdat m) m ρ main
    (hbody := body_obligation m) (hshare := share_eq m) (howed := fun _ _ => rfl) (V := V m)
    (hmain := hmain m Variants.none) (hA := A_eq m) (hin := hin m) (hout := hout m)

/-- The output window's block index is (0, 0) at every point: its block is the whole array. -/
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Before the last point's write-back the result array is as the region found it. -/
theorem arr6_before (c : Dev nD) : ∀ n, n ≤ 49 → (rdat m c).ArrAt 6 n = fun G => G = (rdat m c).A 6
  | 0, _ => rfl
  | n + 1, hn => by
    have hlt : n < cfg0.N := by rw [N50]; omega
    have e := (rdat m c).ArrAt_succ 6 ⟨n, hlt⟩
    rw [if_neg (fun h => absurd ((flush0_6 ⟨n, hlt⟩).mp h) (by simp only; omega))] at e
    exact e.trans (arr6_before c n (by omega))

/-- THE RESULT ARRAY: whatever the proof data allows it to hold after the run is the kernel's result. -/
theorem arr6 (c : Dev nD) (G : S10000x16.Idx → Elt F .f32) (h : (rdat m c).ArrAt 6 cfg0.N G) : G = Out m c := by
  have hlt : 49 < cfg0.N := by rw [N50]; omega
  have h' : (rdat m c).ArrAt 6 (49 + 1) G := (congrArg (fun n => (rdat m c).ArrAt 6 n G) N50).mp h
  have e := (rdat m c).ArrAt_succ 6 ⟨49, hlt⟩
  rw [if_pos ((flush0_6 ⟨49, hlt⟩).mpr (by simp only))] at e
  have h'' : (rdat m c).ArrStep 6 ⟨49, hlt⟩ ((rdat m c).ArrAt 6 49) G := (congrFun e G).mp h'
  obtain ⟨G₀, X, -, ⟨Y, hY, hR⟩, hG⟩ := h''
  have hR' := (after6 m c _ Y X).mp hR
  unfold After6 at hR'
  simp only at hR'
  rw [if_neg (by omega), if_neg (by omega)] at hR'
  have hA := finds6 m c 49 ⟨49, hlt⟩ rfl Y hY
  have hfull : putRows (400 * (49 % 25)) (h2blk m c ⟨49, hlt⟩) Y = H2 m c :=
    agree_all _ _ (agree_step (H2 m c) (h2blk m c ⟨49, hlt⟩) 24 Y (fun y h => h2blk_eq m c ⟨49, hlt⟩ 24 rfl y h) hA)
  rw [hfull] at hR'
  have hr : ((cfg0.win 6).blk ⟨49, hlt⟩).view.read (Elt F) G = X := by rw [hG]; exact View.read_write_univ _ _
  rw [hR'] at hr
  funext i
  have hi := congrFun hr i
  have hemb : ((cfg0.win 6).blk ⟨49, hlt⟩).view.emb i = i := by
    obtain ⟨i0, i1⟩ := index6 ⟨49, hlt⟩
    funext a; apply Fin.ext
    match a with
    | ⟨0, _⟩ => show win0_6.index ⟨49, hlt⟩ (0 : Fin 2) * 10000 + 1 * (i 0).val = (i 0).val; omega
    | ⟨1, _⟩ => show win0_6.index ⟨49, hlt⟩ (1 : Fin 2) * 16 + 1 * (i 1).val = (i 1).val; omega
  have hi' : G (((cfg0.win 6).blk ⟨49, hlt⟩).view.emb i) = Out m c i := hi
  rwa [hemb] at hi'

/-- THE RUN, READ: the result array at the kernel's result, the argument arrays as launched. -/
theorem run_value : θ_run defs (onTc (τ := τ) (main (F := F))) ⟨m, fun _ => 0, ρ⟩ (fun r => ∀ c : Dev nD,
      r.2.mem ((c.tc : Thread nD τ).loc main_v2) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨arr6 m c _ ((h c).1 6),
      ((congrFun ((rdat m c).ArrAt_in 0 rfl cfg0.N) _).mp ((h c).1 0)).trans ((A_eq m c 0).trans (V_main_arg0 m c)),
      ((congrFun ((rdat m c).ArrAt_in 1 rfl cfg0.N) _).mp ((h c).1 1)).trans ((A_eq m c 1).trans (V_main_arg1 m c)),
      ((congrFun ((rdat m c).ArrAt_in 2 rfl cfg0.N) _).mp ((h c).1 2)).trans ((A_eq m c 2).trans (V_main_arg2 m c)),
      ((h c).2 main_arg3 (Pipeline.mem_restRefs_of main_arg3 (by decide) (by decide))).trans (V_main_arg3 m c),
      ((congrFun ((rdat m c).ArrAt_in 4 rfl cfg0.N) _).mp ((h c).1 4)).trans ((A_eq m c 4).trans (V_main_arg4 m c)),
      ((h c).2 main_arg5 (Pipeline.mem_restRefs_of main_arg5 (by decide) (by decide))).trans (V_main_arg5 m c)⟩)
    (run_main m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.Kernel.Body

end
-- ==== Proof.IConds.lean ====
/-
  The four branches of the graph-convolution body, decided over the 2 × 25 grid.  Point t of the grid (t < 50, row-major)
  has phase t / 25 and row block t % 25.  The body computes X·W1 into the first scratch at the very first point, one
  400-row block of relu(A·s1 + b1)·W2 into the second scratch at every point of phase 0, one 400-row block of
  A·s2 + b2 into the output buffer at every point of phase 1, and the column-wise log-softmax of the whole output
  buffer at the last point.  The row offsets of the two block stores are 400 · (t % 25).
-/
import proofs.«120118_g652835029062_cont_sun_m_363_5_alg».proof.Proof.Gen.KernelIdeal.Launch
import proofs.«120118_g652835029062_cont_sun_m_363_5_alg».proof.Proof.Gen.KernelIdeal.Skeleton
import proofs.«120118_g652835029062_cont_sun_m_363_5_alg».proof.Proof.Gen.KernelIdeal.Points
import proofs.«120118_g652835029062_cont_sun_m_363_5_alg».proof.Proof.Gen.KernelIdeal.Frame
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

/-- The first branch is taken: phase 0 and row block 0. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val % 50 = 0 :=
  (by decide +kernel : ∀ t : Fin grid0.N, cond0 (grid0.coords t) ↔ t.val % 50 = 0)

/-- The second branch is taken: phase 0. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- The third branch is taken: phase 1. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The fourth branch is taken: the last point. -/
abbrev cond3 (i : grid0.Coords) : Prop := k0_cond4 i = 1#1
theorem hcond3 : ∀ t : Fin cfg0.N, cond3 (grid0.coords t) ↔ t.val % 50 = 49 :=
  (by decide +kernel : ∀ t : Fin grid0.N, cond3 (grid0.coords t) ↔ t.val % 50 = 49)

/-- The block stores start at row 400 · (t % 25), column 0. -/
theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 0] :=
  (by decide +kernel : ∀ t : Fin grid0.N, k0_off2 (grid0.coords t) = ![400 * (t.val % 25), 0])

/-- The output window is written back at the last point only, and every input but the adjacency block is fetched at the
    first point only; the adjacency block is fetched at every point (Points). -/
theorem N50 : cfg0.N = 50 := N_0

/-- Each window's current staging memref at point `t`, as the pipeline passes it to the body. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S10000x16 .f32 := win0_6.stage (cfg0.slots t 6)
abbrev hs6 (t : Fin cfg0.N) : (ms6 t).IsWhole := hstage0_6 ((cfg0.slots t 6).cast nbuf0_6)
/-- The two scratch operands: whole buffers of the kernel's own. -/
abbrev sc0 : Memref sig .tc .vmem S10000x16 .f32 := Memref.whole cc0_scratch0
abbrev sc1 : Memref sig .tc .vmem S10000x16 .f32 := Memref.whole cc0_scratch1

local notation "𝕄" => MT nD τ sig Unit (Elt F) ℕ (UR sig nD τ) ℕ

/-- The class invariant with the two scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.KernelIdeal.Body

end
-- ==== Proof.IRunA.lean ====
/-
  The body at the first grid point: it stores X·W1 over the whole first scratch, whatever that held, and the first
  400-row block of relu(A·s1 + b1)·W2 into the second scratch over what that held; the output buffer is not touched.
-/
import proofs.«120118_g652835029062_cont_sun_m_363_5_alg».proof.Proof.IConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

local notation "𝕄" => MT nD τ sig Unit (Elt F) ℕ (UR sig nD τ) ℕ

set_option maxHeartbeats 1000000 in
/-- The stores of the first point as lists of pieces (newest first): `.1` those into the first scratch, `.2.1` those into
    the second, with the body's run from the inputs at their blocks, the output buffer at `y6`, the first scratch at
    anything and the second at `xs1`. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : cond0 i) (hc1 : cond1 i) (hc2 : ¬cond2 i) (hc3 : ¬cond3 i)
    (x0 : Vec F S10000x128 .f32) (x1 : Vec F S400x10000 .f32) (x2 : Vec F S128x16 .f32) (x3 : Vec F S1x16 .f32) (x4 : Vec F S16x16 .f32) (x5 : Vec F S1x16 .f32) (y6 : Vec F S10000x16 .f32) (xs1 : Vec F S10000x16 .f32) :
    Σ' (LS0 : List (View.Piece (Elt F) S10000x16 .f32)), { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6
                ∗ (∃ f, arg9.view.loc (c : Thread nD τ) ↦[arg9.view.set]{fullShare} arg9.view.writes (Elt F) f LS0)
                ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg10.eq_unread hf10
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    iexact H10

end Cert.KernelIdeal.Body

end
-- ==== Proof.IRunB.lean ====
/-
  The body at a later point of phase 0 (row block k = t % 25, 0 < t < 25): it reads the first scratch whole and stores
  the 400-row block k of relu(A·s1 + b1)·W2 into the second scratch over what that held.
-/
import proofs.«120118_g652835029062_cont_sun_m_363_5_alg».proof.Proof.IRunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : cond1 i) (hc2 : ¬cond2 i) (hc3 : ¬cond3 i)
    (x1 : Vec F S400x10000 .f32) (x3 : Vec F S1x16 .f32) (x4 : Vec F S16x16 .f32) (xs0 : Vec F S10000x16 .f32) (xs1 : Vec F S10000x16 .f32) :
    { LS1 : List (View.Piece (Elt F) S10000x16 .f32) //
      ∀ (E : Set ℕ) (K : PUnit → sProp 𝕄),
        iprop(owns (c : Thread nD τ) arg3 fullShare x1 ∗ owns (c : Thread nD τ) arg5 fullShare x3 ∗ owns (c : Thread nD τ) arg6 fullShare x4 ∗ owns (c : Thread nD τ) arg9 fullShare xs0 ∗ owns (c : Thread nD τ) arg10 fullShare xs1
            ∗ (iprop(owns (c : Thread nD τ) arg3 fullShare x1 ∗ owns (c : Thread nD τ) arg5 fullShare x3 ∗ owns (c : Thread nD τ) arg6 fullShare x4 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f1, %hf1, H1⟩, ⟨%f3, %hf3, H3⟩, ⟨%f4, %hf4, H4⟩, ⟨%f9, %hf9, H9⟩, ⟨%f10, %hf10, H10⟩, Hk⟩
    obtain rfl := harg3.eq_unread hf1; obtain rfl := harg5.eq_unread hf3; obtain rfl := harg6.eq_unread hf4
    obtain rfl := harg9.eq_unread hf9; obtain rfl := harg10.eq_unread hf10
    sl_exec (disch := first | exact hc0 | exact hc1 | exact hc2 | exact hc3)
    sl_step
    iapply Hk
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H9]
    · iexists _; isplitr; · ipureintro; exact harg9.read_unread _
      iexact H9
    iexact H10

end Cert.KernelIdeal.Body

end
-- ==== Proof.IRunC.lean ====
/-
  The body at a point of phase 1 but the last (row block k = t % 25): it reads the second scratch whole and stores the
  400-row block k of A·s2 + b2 into the output buffer over what that held.
-/
import proofs.«120118_g652835029062_cont_sun_m_363_5_alg».proof.Proof.IRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : ¬cond3 i)
    (x1 : Vec F S400x10000 .f32) (x5 : Vec F S1x16 .f32) (y6 : Vec F S10000x16 .f32) (xs1 : Vec F S10000x16 .f32) :
    { L6 : List (View.Piece (Elt F) S10000x16 .f32) //
      ∀ (E : Set ℕ) (K : PUnit → sProp 𝕄),
        iprop(owns (c : Thread nD τ) arg3 fullShare x1 ∗ owns (c : Thread nD τ) arg7 fullShare x5 ∗ owns (c : Thread nD τ) arg8 fullShare y6 ∗ owns (c : Thread nD τ) arg10 fullShare xs1
            ∗ (iprop(owns (c : Thread nD τ) arg3 fullShare x1 ∗ owns (c : Thread nD τ) arg7 fullShare x5 ∗ (arg8.view.loc (c : Thread nD τ) ↦[arg8.view.set]{fullShare} arg8.view.writes (Elt F) (harg8.unread y6) L6) ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f1, %hf1, H1⟩, ⟨%f5, %hf5, H5⟩, ⟨%f6, %hf6, H6⟩, ⟨%f10, %hf10, H10⟩, Hk⟩
    obtain rfl := harg3.eq_unread hf1; obtain rfl := harg7.eq_unread hf5
    obtain rfl := harg8.eq_unread hf6; obtain rfl := harg10.eq_unread hf10
    sl_exec (disch := first | exact hc0 | exact hc1 | exact hc2 | exact hc3)
    sl_step
    iapply Hk
    isplitl [H1]
    · iexists _; isplitr; · ipureintro; exact harg3.read_unread _
      iexact H1
    isplitl [H5]
    · iexists _; isplitr; · ipureintro; exact harg7.read_unread _
      iexact H5
    isplitl [H6]; · iexact H6
    iexists _; isplitr; · ipureintro; exact harg10.read_unread _
    iexact H10

end Cert.KernelIdeal.Body

end
-- ==== Proof.IRunD.lean ====
/-
  The body at the last point: the last 400-row block of A·s2 + b2 into the output buffer, then the whole buffer read
  back and replaced by its column-wise log-softmax.
-/
import proofs.«120118_g652835029062_cont_sun_m_363_5_alg».proof.Proof.IRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : cond3 i)
    (x1 : Vec F S400x10000 .f32) (x5 : Vec F S1x16 .f32) (y6 : Vec F S10000x16 .f32) (xs1 : Vec F S10000x16 .f32) :
    { L6 : List (View.Piece (Elt F) S10000x16 .f32) //
      ∀ (E : Set ℕ) (K : PUnit → sProp 𝕄),
        iprop(owns (c : Thread nD τ) arg3 fullShare x1 ∗ owns (c : Thread nD τ) arg7 fullShare x5 ∗ owns (c : Thread nD τ) arg8 fullShare y6 ∗ owns (c : Thread nD τ) arg10 fullShare xs1
            ∗ (iprop(owns (c : Thread nD τ) arg3 fullShare x1 ∗ owns (c : Thread nD τ) arg7 fullShare x5 ∗ (arg8.view.loc (c : Thread nD τ) ↦[arg8.view.set]{fullShare} arg8.view.writes (Elt F) (harg8.unread y6) L6) ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f1, %hf1, H1⟩, ⟨%f5, %hf5, H5⟩, ⟨%f6, %hf6, H6⟩, ⟨%f10, %hf10, H10⟩, Hk⟩
    obtain rfl := harg3.eq_unread hf1; obtain rfl := harg7.eq_unread hf5
    obtain rfl := harg8.eq_unread hf6; obtain rfl := harg10.eq_unread hf10
    sl_exec (disch := first | exact hc0 | exact hc1 | exact hc2 | exact hc3)
    sl_step
    iapply Hk
    isplitl [H1]
    · iexists _; isplitr; · ipureintro; exact harg3.read_unread _
      iexact H1
    isplitl [H5]
    · iexists _; isplitr; · ipureintro; exact harg7.read_unread _
      iexact H5
    isplitl [H6]; · iexact H6
    iexists _; isplitr; · ipureintro; exact harg10.read_unread _
    iexact H10

end Cert.KernelIdeal.Body

end
-- ==== Proof.IData.lean ====
/-
  What each case of the body leaves in the buffers it stores into, as plain functions of what it found there.
  A store of 400 whole rows at row offset o over contents Y leaves the payload on rows [o, o + 400) and Y elsewhere
  (`putRows`); a store of the whole buffer leaves its payload; and every whole-buffer load reads the buffer's contents.
-/
import proofs.«120118_g652835029062_cont_sun_m_363_5_alg».proof.Proof.IRunD
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

/-- Rows [o, o + 400) replaced by the 400 × 16 block `P`, the other rows of `Y` kept. -/
def putRows {α : Type} (o : ℕ) (P : S400x16.Idx → α) (Y : S10000x16.Idx → α) : S10000x16.Idx → α :=
  fun y => if h : o ≤ (y 0).val ∧ (y 0).val < o + 400 then P (ValueIdx.ix2 (n0 := 400) (n1 := 16) ⟨(y 0).val - o, by omega⟩ (y 1)) else Y y

theorem putRows_of_mem {α : Type} (o : ℕ) (P : S400x16.Idx → α) (Y : S10000x16.Idx → α) (y : S10000x16.Idx)
    (h : o ≤ (y 0).val ∧ (y 0).val < o + 400) :
    putRows o P Y y = P (ValueIdx.ix2 (n0 := 400) (n1 := 16) ⟨(y 0).val - o, by omega⟩ (y 1)) := dif_pos h

theorem putRows_of_not_mem {α : Type} (o : ℕ) (P : S400x16.Idx → α) (Y : S10000x16.Idx → α) (y : S10000x16.Idx)
    (h : ¬(o ≤ (y 0).val ∧ (y 0).val < o + 400)) : putRows o P Y y = Y y := dif_neg h

theorem zeros2 : (![0, 0] : Fin 2 → ℕ) = fun _ => 0 := funext fun a => by fin_cases a <;> rfl

/-- A store of rows [o, o + 400) into a whole buffer holding `Y`, read back. -/
theorem read_rows_over (a : Memref sig .tc .vmem S10000x16 .f32) (ha : a.IsWhole) (off : Fin 2 → ℕ)
    (inb : ∀ b, off b + S400x16.size b ≤ S10000x16.size b) (o : ℕ) (ho : off = ![o, 0])
    (P : S400x16.Idx → Elt F .f32) (Y : S10000x16.Idx → Elt F .f32) :
    a.view.read (Elt F) (a.view.writes (Elt F) (ha.unread Y)
      [(⟨Rect.unit (s := S10000x16) off S400x16.size inb, P⟩ : View.Piece (Elt F) S10000x16 .f32)]) = putRows o P Y := by
  funext y
  by_cases h : o ≤ (y 0).val ∧ (y 0).val < o + 400
  · rw [putRows_of_mem o P Y y h]
    exact View.read_writes_cons_rows_of_mem a.view _ inb P [] y _ ho
      (by show (y 0).val = o + ((y 0).val - o); omega) rfl
  · rw [putRows_of_not_mem o P Y y h]
    rw [View.read_writes_cons_rows_of_not_mem (W := 400) a.view _ inb P [] y ho rfl (by omega)]
    rw [View.writes_nil]
    exact congrFun (ha.read_unread Y) y

/-- A store of the whole buffer, read back, whatever was stored before. -/
theorem read_whole_over (a : Memref sig .tc .vmem S10000x16 .f32) (f : a.view.ty.Contents (Elt F))
    (inb : ∀ b, (![0, 0] : Fin 2 → ℕ) b + S10000x16.size b ≤ S10000x16.size b)
    (P : S10000x16.Idx → Elt F .f32) (L : List (View.Piece (Elt F) S10000x16 .f32)) :
    a.view.read (Elt F) (a.view.writes (Elt F) f
      ((⟨Rect.unit (s := S10000x16) ![0, 0] S10000x16.size inb, P⟩ : View.Piece (Elt F) S10000x16 .f32) :: L)) = P := by
  funext y
  exact View.read_writes_cons_unit_of_mem a.view f inb P L y y rfl (fun b => by
    fin_cases b
    · show (y 0).val = 0 + (y 0).val; omega
    · show (y 1).val = 0 + (y 1).val; omega)

/-- Case A leaves X·W1 in the first scratch … -/
theorem readA_s1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : cond0 i) (hc1 : cond1 i) (hc2 : ¬cond2 i) (hc3 : ¬cond3 i)
    (x0 : Vec F S10000x128 .f32) (x1 : Vec F S400x10000 .f32) (x2 : Vec F S128x16 .f32) (x3 : Vec F S1x16 .f32) (x4 : Vec F S16x16 .f32) (x5 : Vec F S1x16 .f32) (y6 : Vec F S10000x16 .f32) (xs1 : Vec F S10000x16 .f32) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 hc3 x0 x1 x2 x3 x4 x5 y6 xs1).1)
      = k0_pay1 x0 x2 := by
  unfold runA; dsimp only; unfold runA.sl.H9_1
  simp only [View.readAt_eq_ld, harg2.read_unread, harg4.read_unread, View.ld_unit_zero (S := S10000x128) zeros2, View.ld_unit_zero (S := S128x16) zeros2]
  exact read_whole_over arg9 f _ _ []

/-- … and its block of the second layer's right factor in the second, over what that held. -/
theorem readA_s2 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : cond0 i) (hc1 : cond1 i) (hc2 : ¬cond2 i) (hc3 : ¬cond3 i)
    (x0 : Vec F S10000x128 .f32) (x1 : Vec F S400x10000 .f32) (x2 : Vec F S128x16 .f32) (x3 : Vec F S1x16 .f32) (x4 : Vec F S16x16 .f32) (x5 : Vec F S1x16 .f32) (y6 : Vec F S10000x16 .f32) (xs1 : Vec F S10000x16 .f32) (o : ℕ) (ho : k0_off1 i = ![o, 0]) :
    arg10.view.read (Elt F) (arg10.view.writes (Elt F) (harg10.unread xs1) (runA c i arg2 harg2 arg3 harg3 arg4 harg4 arg5 harg5 arg6 harg6 arg7 harg7 arg8 harg8 arg9 harg9 arg10 harg10 hc0 hc1 hc2 hc3 x0 x1 x2 x3 x4 x5 y6 xs1).2.1)
      = putRows o (k0_pay2 x1 (k0_pay1 x0 x2) x3 x4) xs1 := by
  unfold runA; dsimp only; unfold runA.sl.v17 runA.sl.H9_1
  simp only [View.readAt_eq_ld, harg2.read_unread, harg3.read_unread, harg4.read_unread, harg5.read_unread, harg6.read_unread,
    View.ld_unit_zero (S := S10000x128) zeros2, View.ld_unit_zero (S := S128x16) zeros2, View.ld_unit_zero (S := S400x10000) zeros2,
    View.ld_unit_zero (S := S1x16) zeros2, View.ld_unit_zero (S := S16x16) zeros2, View.readCov_unit_zero (S := S10000x16) _ zeros2]
  exact read_rows_over arg10 harg10 _ _ o ho _ _

/-- Case B leaves its block in the second scratch, over what that held. -/
theorem readB_s2 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : cond1 i) (hc2 : ¬cond2 i) (hc3 : ¬cond3 i)
    (x1 : Vec F S400x10000 .f32) (x3 : Vec F S1x16 .f32) (x4 : Vec F S16x16 .f32) (xs0 : Vec F S10000x16 .f32) (xs1 : Vec F S10000x16 .f32)
    (o : ℕ) (ho : k0_off1 i = ![o, 0]) :
    arg10.view.read (Elt F) (arg10.view.writes (Elt F) (harg10.unread xs1) (runB c i arg2 harg2 arg3 harg3 arg4 harg4 arg5 harg5 arg6 harg6 arg7 harg7 arg8 harg8 arg9 harg9 arg10 harg10 hc0 hc1 hc2 hc3 x1 x3 x4 xs0 xs1).1)
      = putRows o (k0_pay2 x1 xs0 x3 x4) xs1 := by
  unfold runB; dsimp only
  simp only [View.readAt_eq_ld, harg3.read_unread, harg9.read_unread, harg5.read_unread, harg6.read_unread,
    View.ld_unit_zero (S := S400x10000) zeros2, View.ld_unit_zero (S := S10000x16) zeros2,
    View.ld_unit_zero (S := S1x16) zeros2, View.ld_unit_zero (S := S16x16) zeros2]
  exact read_rows_over arg10 harg10 _ _ o ho _ _

/-- Case C leaves its block of the second layer in the output buffer, over what that held. -/
theorem readC_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : ¬cond3 i)
    (x1 : Vec F S400x10000 .f32) (x5 : Vec F S1x16 .f32) (y6 : Vec F S10000x16 .f32) (xs1 : Vec F S10000x16 .f32)
    (o : ℕ) (ho : k0_off2 i = ![o, 0]) :
    arg8.view.read (Elt F) (arg8.view.writes (Elt F) (harg8.unread y6) (runC c i arg2 harg2 arg3 harg3 arg4 harg4 arg5 harg5 arg6 harg6 arg7 harg7 arg8 harg8 arg9 harg9 arg10 harg10 hc0 hc1 hc2 hc3 x1 x5 y6 xs1).1)
      = putRows o (k0_pay3 x1 xs1 x5) y6 := by
  unfold runC; dsimp only
  simp only [View.readAt_eq_ld, harg3.read_unread, harg10.read_unread, harg7.read_unread,
    View.ld_unit_zero (S := S400x10000) zeros2, View.ld_unit_zero (S := S10000x16) zeros2, View.ld_unit_zero (S := S1x16) zeros2]
  exact read_rows_over arg8 harg8 _ _ o ho _ _

/-- Case D leaves the column-wise log-softmax of the buffer with its last block stored. -/
theorem readD_out (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S10000x16 .f32) (harg8 : arg8.IsWhole) (arg9 : Memref sig .tc .vmem S10000x16 .f32) (harg9 : arg9.IsWhole) (arg10 : Memref sig .tc .vmem S10000x16 .f32) (harg10 : arg10.IsWhole) (hc0 : ¬cond0 i) (hc1 : ¬cond1 i) (hc2 : cond2 i) (hc3 : cond3 i)
    (x1 : Vec F S400x10000 .f32) (x5 : Vec F S1x16 .f32) (y6 : Vec F S10000x16 .f32) (xs1 : Vec F S10000x16 .f32)
    (o : ℕ) (ho : k0_off2 i = ![o, 0]) :
    arg8.view.read (Elt F) (arg8.view.writes (Elt F) (harg8.unread y6) (runD c i arg2 harg2 arg3 harg3 arg4 harg4 arg5 harg5 arg6 harg6 arg7 harg7 arg8 harg8 arg9 harg9 arg10 harg10 hc0 hc1 hc2 hc3 x1 x5 y6 xs1).1)
      = k0_pay4 (putRows o (k0_pay3 x1 xs1 x5) y6) := by
  unfold runD; dsimp only; unfold runD.sl.v16 runD.sl.H6_1
  rw [read_whole_over]
  congr 1
  simp only [View.readAt_eq_ld, harg3.read_unread, harg10.read_unread, harg7.read_unread,
    View.ld_unit_zero (S := S400x10000) zeros2, View.ld_unit_zero (S := S10000x16) zeros2, View.ld_unit_zero (S := S1x16) zeros2]
  exact read_rows_over arg8 harg8 _ _ o ho _ _

end Cert.KernelIdeal.Body

end
-- ==== Proof.IDat.lean ====
/-
  The proof data of the one pipeline, relational in the output window.  With k = t % 25 the row block of point t:
    s1      = X·W1                                     (first scratch, after the first point)
    s2      = the rows relu(A·s1 + b1)·W2, block k written at point k of phase 0
    h2      = the rows A·s2 + b2, block k written at point 25 + k
    result  = the column-wise log-softmax of h2        (stored over the whole output buffer at the last point)
  Before point n ≥ 1 the first scratch holds s1 and the second agrees with s2 on its first 400·min(n, 25) rows;
  the output buffer, found at a point t of phase 1, agrees with h2 on its first 400·(t − 25) rows.
-/
import proofs.«120118_g652835029062_cont_sun_m_363_5_alg».proof.Proof.IData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The point of the grid at position `k`. -/
def pt (k : ℕ) (hk : k < 50) : Fin cfg0.N := ⟨k, lt_of_lt_of_eq hk N50.symm⟩

theorem val_lt (t : Fin cfg0.N) : t.val < 50 := lt_of_lt_of_eq t.isLt N50

/-- X·W1. -/
def S1 (c : Dev nD) : Vec F S10000x16 .f32 := k0_pay1 (iblk m c 0 (pt 0 (by omega))) (iblk m c 2 (pt 0 (by omega)))

/-- The block of relu(A·s1 + b1)·W2 that point `t` computes. -/
def s2blk (c : Dev nD) (t : Fin cfg0.N) : S400x16.Idx → Elt F .f32 := k0_pay2 (iblk m c 1 t) (S1 m c) (iblk m c 3 t) (iblk m c 4 t)

/-- relu(A·s1 + b1)·W2, row by row: row r is row r % 400 of the block of point r / 400. -/
def S2 (c : Dev nD) : Vec F S10000x16 .f32 := fun y =>
  s2blk m c (pt ((y 0).val / 400) (by have := ValueIdx.idx2_lt0 y; omega))
    (ValueIdx.ix2 (n0 := 400) (n1 := 16) ⟨(y 0).val % 400, Nat.mod_lt _ (by omega)⟩ (y 1))

/-- The block of A·s2 + b2 that point `t` computes. -/
def h2blk (c : Dev nD) (t : Fin cfg0.N) : S400x16.Idx → Elt F .f32 := k0_pay3 (iblk m c 1 t) (S2 m c) (iblk m c 5 t)

/-- A·s2 + b2, row by row: row r is row r % 400 of the block of point 25 + r / 400. -/
def H2 (c : Dev nD) : Vec F S10000x16 .f32 := fun y =>
  h2blk m c (pt (25 + (y 0).val / 400) (by have := ValueIdx.idx2_lt0 y; omega))
    (ValueIdx.ix2 (n0 := 400) (n1 := 16) ⟨(y 0).val % 400, Nat.mod_lt _ (by omega)⟩ (y 1))

/-- The kernel's result. -/
def Out (c : Dev nD) : Vec F S10000x16 .f32 := k0_pay4 (H2 m c)

/-- Two contents agree on the rows below `r`. -/
def AgreeBelow {α : Type} (r : ℕ) (d g : S10000x16.Idx → α) : Prop := ∀ y : S10000x16.Idx, (y 0).val < r → d y = g y

theorem agree_zero {α : Type} (d g : S10000x16.Idx → α) : AgreeBelow 0 d g := fun y h => absurd h (Nat.not_lt_zero _)

theorem agree_all {α : Type} (d g : S10000x16.Idx → α) (h : AgreeBelow 10000 d g) : d = g :=
  funext fun y => h y (ValueIdx.idx2_lt0 y)

/-- Storing block `k` of `g` over contents that agree with `g` below row 400·k gives contents that agree below 400·(k + 1). -/
theorem agree_step {α : Type} (g : S10000x16.Idx → α) (P : S400x16.Idx → α) (k : ℕ) (Y : S10000x16.Idx → α)
    (hP : ∀ (y : S10000x16.Idx) (h : 400 * k ≤ (y 0).val ∧ (y 0).val < 400 * k + 400),
      P (ValueIdx.ix2 (n0 := 400) (n1 := 16) ⟨(y 0).val - 400 * k, by omega⟩ (y 1)) = g y)
    (hY : AgreeBelow (400 * k) Y g) : AgreeBelow (400 * (k + 1)) (putRows (400 * k) P Y) g := by
  intro y hy
  by_cases h : 400 * k ≤ (y 0).val ∧ (y 0).val < 400 * k + 400
  · rw [putRows_of_mem _ _ _ _ h]; exact hP y h
  · rw [putRows_of_not_mem _ _ _ _ h]; exact hY y (by omega)

/-- Block `k` of s2 is what point `k` computes. -/
theorem s2blk_eq (c : Dev nD) (t : Fin cfg0.N) (y : S10000x16.Idx) (h : 400 * t.val ≤ (y 0).val ∧ (y 0).val < 400 * t.val + 400) :
    s2blk m c t (ValueIdx.ix2 (n0 := 400) (n1 := 16) ⟨(y 0).val - 400 * t.val, by omega⟩ (y 1)) = S2 m c y := by
  unfold S2
  have e : pt ((y 0).val / 400) (by have := ValueIdx.idx2_lt0 y; omega) = t := Fin.ext (by show (y 0).val / 400 = t.val; omega)
  rw [e]
  congr 2
  apply Fin.ext
  show (y 0).val - 400 * t.val = (y 0).val % 400
  omega

/-- Block `k` of h2 is what point `25 + k` computes. -/
theorem h2blk_eq (c : Dev nD) (t : Fin cfg0.N) (k : ℕ) (hk : t.val = 25 + k) (y : S10000x16.Idx) (h : 400 * k ≤ (y 0).val ∧ (y 0).val < 400 * k + 400) :
    h2blk m c t (ValueIdx.ix2 (n0 := 400) (n1 := 16) ⟨(y 0).val - 400 * k, by omega⟩ (y 1)) = H2 m c y := by
  unfold H2
  have e : pt (25 + (y 0).val / 400) (by have := ValueIdx.idx2_lt0 y; omega) = t := Fin.ext (by show 25 + (y 0).val / 400 = t.val; omega)
  rw [e]
  congr 2
  apply Fin.ext
  show (y 0).val - 400 * k = (y 0).val % 400
  omega

/-- What the output window's buffer may hold after point `t`, given what it held before. -/
def After6 (c : Dev nD) (t : Fin cfg0.N) (Y X : S10000x16.Idx → Elt F .f32) : Prop :=
  if t.val < 25 then X = Y
  else if t.val < 49 then X = putRows (400 * (t.val % 25)) (h2blk m c t) Y
  else X = k0_pay4 (putRows (400 * (t.val % 25)) (h2blk m c t) Y)

/-- The invariant before position `n`: the class's before the first point; then the first scratch at s1, the second
    agreeing with s2 on the rows written so far, and the generator register at some state. -/
def Phi (c : Dev nD) : ℕ → sProp 𝕄
  | 0 => Pipeline.ΦA spec0 c
  | n + 1 => iprop(iprop(owns (c : Thread nD τ) sc0 fullShare (S1 m c)
      ∗ (∃ d, ⌜AgreeBelow (400 * min (n + 1) 25) d (S2 m c)⌝ ∗ owns (c : Thread nD τ) sc1 fullShare d)) ∗ (∃ r, prngReg c r))

theorem Phi_pos (c : Dev nD) (n : ℕ) (hz : n ≠ 0) :
    Phi m c n = iprop(iprop(owns (c : Thread nD τ) sc0 fullShare (S1 m c)
      ∗ (∃ d, ⌜AgreeBelow (400 * min n 25) d (S2 m c)⌝ ∗ owns (c : Thread nD τ) sc1 fullShare d)) ∗ (∃ r, prngReg c r)) := by
  cases n with
  | zero => exact absurd rfl hz
  | succ n => rfl

/-- The proof data: the arrays as the region finds them; every input left as found; the output window by `After6`. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => After6 m c t Y X
  Φ t := Phi m c t.val
  q _ := fullShare
  owed _ := 0

theorem A_eq (c : Dev nD) (w : Fin cfg0.W) : (rdat m c).A w = V m c (Pipeline.arrRef spec0 w) := by dsimp only [rdat]

theorem after0 (c : Dev nD) (t : Fin cfg0.N) (Y X) : (rdat m c).after 0 t Y X ↔ X = Y := by dsimp only [rdat]; exact Iff.rfl
theorem after1 (c : Dev nD) (t : Fin cfg0.N) (Y X) : (rdat m c).after 1 t Y X ↔ X = Y := by dsimp only [rdat]; exact Iff.rfl
theorem after2 (c : Dev nD) (t : Fin cfg0.N) (Y X) : (rdat m c).after 2 t Y X ↔ X = Y := by dsimp only [rdat]; exact Iff.rfl
theorem after3 (c : Dev nD) (t : Fin cfg0.N) (Y X) : (rdat m c).after 3 t Y X ↔ X = Y := by dsimp only [rdat]; exact Iff.rfl
theorem after4 (c : Dev nD) (t : Fin cfg0.N) (Y X) : (rdat m c).after 4 t Y X ↔ X = Y := by dsimp only [rdat]; exact Iff.rfl
theorem after5 (c : Dev nD) (t : Fin cfg0.N) (Y X) : (rdat m c).after 5 t Y X ↔ X = Y := by dsimp only [rdat]; exact Iff.rfl
theorem after6 (c : Dev nD) (t : Fin cfg0.N) (Y X) : (rdat m c).after 6 t Y X ↔ After6 m c t Y X := by dsimp only [rdat]; exact Iff.rfl

/-- An input's buffer holds its block wherever the body is handed it. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after0 m c t Y X).mp h) t Y h
  rw [hd]; unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after1 m c t Y X).mp h) t Y h
  rw [hd]; unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => (after2 m c t Y X).mp h) t Y h
  rw [hd]; unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => (after3 m c t Y X).mp h) t Y h
  rw [hd]; unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => (after4 m c t Y X).mp h) t Y h
  rw [hd]; unfold RDat.fetched RDat.blockOf iblk; rw [A_eq]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => (after5 m c t Y X).mp h) t Y h
  rw [hd]; unfold RDat.fetched RDat.blockOf iblk; rw [A_eq]; try rfl

/-- The output window is never fetched. -/
theorem fetch6 : ∀ t : Fin cfg0.N, (cfg0.win 6).fetch t = false :=
  (by decide +kernel : ∀ t : Fin grid0.N, win0_6.fetch t = false)

/-- The output buffer, wherever the body is handed it, agrees with h2 on the rows of the blocks stored so far. -/
theorem finds6 (c : Dev nD) : ∀ (n : ℕ) (t : Fin cfg0.N), t.val = n → ∀ Y, (rdat m c).Finds 6 t Y → AgreeBelow (400 * (n - 25)) Y (H2 m c) := by
  intro n
  induction n with
  | zero => intro t _ Y _; exact agree_zero _ _
  | succ n ih =>
    intro t ht Y hY
    by_cases h25 : n + 1 ≤ 25
    · rw [show n + 1 - 25 = 0 by omega]; exact agree_zero _ _
    · have hN := val_lt t
      rcases ((rdat m c).finds_of_pos (fetch6 t) (by omega) Y).mp hY with hfl | ⟨Y', hY', hR⟩
      · exfalso
        have := (flush0_6 ⟨t.val - 1, Nat.lt_of_le_of_lt (Nat.sub_le _ _) t.isLt⟩).mp hfl
        simp only at this; omega
      · have hR' := (after6 m c _ Y' Y).mp hR
        have ih' := ih ⟨t.val - 1, Nat.lt_of_le_of_lt (Nat.sub_le _ _) t.isLt⟩ (by simp only; omega) Y' hY'
        unfold After6 at hR'
        simp only at hR'
        rw [if_neg (by omega), if_pos (by omega)] at hR'
        rw [hR', show (t.val - 1) % 25 = n - 25 by omega, show n + 1 - 25 = (n - 25) + 1 by omega]
        exact agree_step _ _ _ _ (fun y h => h2blk_eq m c _ (n - 25) (by simp only; omega) y h) ih'

end Cert.KernelIdeal.Body

end
-- ==== Proof.IBody.lean ====
/-
  The body obligation: at every grid point, from the invariant and the buffers as the body may find them, the body
  runs to the invariant of the next point and leaves every input buffer as found and the output buffer in the
  relation of its case.
-/
import proofs.«120118_g652835029062_cont_sun_m_363_5_alg».proof.Proof.IDat

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem Phi_cast (c : Dev nD) (t : Fin cfg0.N) : (rdat m c).Φ t.castSucc = Phi m c t.val := by
  dsimp only [rdat]; simp only [Fin.coe_castSucc]
theorem Phi_succ (c : Dev nD) (t : Fin cfg0.N) : (rdat m c).Φ t.succ = Phi m c (t.val + 1) := by
  dsimp only [rdat]; simp only [Fin.val_succ]

/-- One more block of s2. -/
theorem s2_step (c : Dev nD) (t : Fin cfg0.N) (ht : t.val < 25) (d : S10000x16.Idx → Elt F .f32)
    (hd : AgreeBelow (400 * t.val) d (S2 m c)) :
    AgreeBelow (400 * min (t.val + 1) 25) (putRows (400 * (t.val % 25)) (s2blk m c t) d) (S2 m c) := by
  rw [show min (t.val + 1) 25 = t.val + 1 by omega, show t.val % 25 = t.val by omega]
  exact agree_step _ _ _ _ (fun y h => s2blk_eq m c t y h) hd

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0) ∗ owns (c : Thread nD τ) (ms1 t) fullShare (Y 1)
    ∗ owns (c : Thread nD τ) (ms2 t) fullShare (Y 2) ∗ owns (c : Thread nD τ) (ms3 t) fullShare (Y 3)
    ∗ owns (c : Thread nD τ) (ms4 t) fullShare (Y 4) ∗ owns (c : Thread nD τ) (ms5 t) fullShare (Y 5)
    ∗ owns (c : Thread nD τ) (ms6 t) fullShare (Y 6))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X))

set_option maxHeartbeats 4000000 in
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have h6 := finds6 m c t.val t rfl (Y 6) (hY 6)
  have hN := val_lt t
  unfold bodyPre bodyPost bodyAt0
  rw [e0, e1, e2, e3, e4, e5]
  rw [show (rdat m c).owesAt () t.succ = (rdat m c).owesAt () t.castSucc from rfl]
  rw [Phi_cast, Phi_succ, Phi_pos m c (t.val + 1) (Nat.succ_ne_zero _)]
  by_cases h0 : t.val % 50 = 0
  · -- the first point
    have hc0 := (hcond0 t).mpr h0
    have hc1 := (hcond1 t).mpr (show t.val < 25 by omega)
    have hc2 : ¬cond2 (grid0.coords t) := fun h => absurd ((hcond2 t).mp h) (by omega)
    have hc3 : ¬cond3 (grid0.coords t) := fun h => absurd ((hcond3 t).mp h) (by omega)
    have htz : t.val = 0 := by omega
    have ht0 : t = pt 0 (by omega) := Fin.ext htz
    rw [show Phi m c t.val = Pipeline.ΦA spec0 c from by rw [htz]; rfl, PhiA_eq]
    iintro ⟨⟨⟨⟨%d0, HS0⟩, ⟨%d1, HS1⟩⟩, Hg⟩, Ho, H0, H1, H2, H3, H4, H5, H6⟩
    iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 0 t) (iblk m c 1 t) (iblk m c 2 t) (iblk m c 3 t) (iblk m c 4 t) (iblk m c 5 t) (Y 6) d1).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexact HS1
    iintro ⟨H0, H1, H2, H3, H4, H5, H6, ⟨%f9, HS0⟩, HS1⟩
    isplitl [HS0 HS1 Hg]
    · isplitl [HS0 HS1]
      · isplitl [HS0]
        · unfold owns; iexists _; isplitr
          swap; · iexact HS0
          ipureintro
          rw [readA_s1]; unfold S1; rw [← ht0]
        · iexists (putRows (400 * (t.val % 25)) (s2blk m c t) d1); isplitr
          · ipureintro; exact s2_step m c t (by omega) d1 (by rw [htz]; exact agree_zero _ _)
          unfold owns; iexists _; isplitr
          swap; · iexact HS1
          ipureintro
          rw [readA_s2 c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ _ _ _ _ (400 * (t.val % 25)) (off1_eq t)]
          unfold s2blk S1; rw [← ht0]
      iexact Hg
    isplitl [Ho]; · iexact Ho
    isplitl [H0]
    · iexists _; isplitr; · ipureintro; exact (after0 m c t _ _).mpr rfl
      iexact H0
    isplitl [H1]
    · iexists _; isplitr; · ipureintro; exact (after1 m c t _ _).mpr rfl
      iexact H1
    isplitl [H2]
    · iexists _; isplitr; · ipureintro; exact (after2 m c t _ _).mpr rfl
      iexact H2
    isplitl [H3]
    · iexists _; isplitr; · ipureintro; exact (after3 m c t _ _).mpr rfl
      iexact H3
    isplitl [H4]
    · iexists _; isplitr; · ipureintro; exact (after4 m c t _ _).mpr rfl
      iexact H4
    isplitl [H5]
    · iexists _; isplitr; · ipureintro; exact (after5 m c t _ _).mpr rfl
      iexact H5
    iexists (Y 6); isplitr
    · ipureintro; refine (after6 m c t _ _).mpr ?_; unfold After6; rw [if_pos (by omega)]
    iexact H6
  · have hz : t.val ≠ 0 := fun h => h0 (by omega)
    rw [Phi_pos m c t.val hz]
    have hc0 : ¬cond0 (grid0.coords t) := fun h => h0 ((hcond0 t).mp h)
    by_cases h1 : t.val < 25
    · -- a later point of phase 0
      have hc1 := (hcond1 t).mpr h1
      have hc2 : ¬cond2 (grid0.coords t) := fun h => absurd ((hcond2 t).mp h) (by omega)
      have hc3 : ¬cond3 (grid0.coords t) := fun h => absurd ((hcond3 t).mp h) (by omega)
      iintro ⟨⟨⟨HS0, ⟨%d, %hd, HS1⟩⟩, Hg⟩, Ho, H0, H1, H2, H3, H4, H5, H6⟩
      iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 1 t) (iblk m c 3 t) (iblk m c 4 t) (S1 m c) d).2 Set.univ _)
      isplitl [H1]; · iexact H1
      isplitl [H3]; · iexact H3
      isplitl [H4]; · iexact H4
      isplitl [HS0]; · iexact HS0
      isplitl [HS1]; · iexact HS1
      iintro ⟨H1, H3, H4, HS0, HS1⟩
      isplitl [HS0 HS1 Hg]
      · isplitl [HS0 HS1]
        · isplitl [HS0]; · iexact HS0
          iexists (putRows (400 * (t.val % 25)) (s2blk m c t) d); isplitr
          · ipureintro; exact s2_step m c t h1 d (by rwa [show min t.val 25 = t.val by omega] at hd)
          unfold owns; iexists _; isplitr
          swap; · iexact HS1
          ipureintro
          exact readB_s2 c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ _ (400 * (t.val % 25)) (off1_eq t)
        iexact Hg
      isplitl [Ho]; · iexact Ho
      isplitl [H0]
      · iexists _; isplitr; · ipureintro; exact (after0 m c t _ _).mpr rfl
        iexact H0
      isplitl [H1]
      · iexists _; isplitr; · ipureintro; exact (after1 m c t _ _).mpr rfl
        iexact H1
      isplitl [H2]
      · iexists _; isplitr; · ipureintro; exact (after2 m c t _ _).mpr rfl
        iexact H2
      isplitl [H3]
      · iexists _; isplitr; · ipureintro; exact (after3 m c t _ _).mpr rfl
        iexact H3
      isplitl [H4]
      · iexists _; isplitr; · ipureintro; exact (after4 m c t _ _).mpr rfl
        iexact H4
      isplitl [H5]
      · iexists _; isplitr; · ipureintro; exact (after5 m c t _ _).mpr rfl
        iexact H5
      iexists (Y 6); isplitr
      · ipureintro; refine (after6 m c t _ _).mpr ?_; unfold After6; rw [if_pos h1]
      iexact H6
    · have hc1 : ¬cond1 (grid0.coords t) := fun h => h1 ((hcond1 t).mp h)
      have hc2 := (hcond2 t).mpr (show 25 ≤ t.val by omega)
      by_cases h3 : t.val % 50 = 49
      · -- the last point
        have hc3 := (hcond3 t).mpr h3
        iintro ⟨⟨⟨HS0, ⟨%d, %hd, HS1⟩⟩, Hg⟩, Ho, H0, H1, H2, H3, H4, H5, H6⟩
        obtain rfl : d = S2 m c := agree_all _ _ (by rwa [show 400 * min t.val 25 = 10000 by omega] at hd)
        iapply ((runD c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 1 t) (iblk m c 5 t) (Y 6) (S2 m c)).2 Set.univ _)
        isplitl [H1]; · iexact H1
        isplitl [H5]; · iexact H5
        isplitl [H6]; · iexact H6
        isplitl [HS1]; · iexact HS1
        iintro ⟨H1, H5, H6, HS1⟩
        isplitl [HS0 HS1 Hg]
        · isplitl [HS0 HS1]
          · isplitl [HS0]; · iexact HS0
            iexists (S2 m c); isplitr
            · ipureintro; exact fun y _ => rfl
            iexact HS1
          iexact Hg
        isplitl [Ho]; · iexact Ho
        isplitl [H0]
        · iexists _; isplitr; · ipureintro; exact (after0 m c t _ _).mpr rfl
          iexact H0
        isplitl [H1]
        · iexists _; isplitr; · ipureintro; exact (after1 m c t _ _).mpr rfl
          iexact H1
        isplitl [H2]
        · iexists _; isplitr; · ipureintro; exact (after2 m c t _ _).mpr rfl
          iexact H2
        isplitl [H3]
        · iexists _; isplitr; · ipureintro; exact (after3 m c t _ _).mpr rfl
          iexact H3
        isplitl [H4]
        · iexists _; isplitr; · ipureintro; exact (after4 m c t _ _).mpr rfl
          iexact H4
        isplitl [H5]
        · iexists _; isplitr; · ipureintro; exact (after5 m c t _ _).mpr rfl
          iexact H5
        iexists (k0_pay4 (putRows (400 * (t.val % 25)) (h2blk m c t) (Y 6))); isplitr
        · ipureintro; refine (after6 m c t _ _).mpr ?_; unfold After6; rw [if_neg h1, if_neg (by omega)]
        unfold owns; iexists _; isplitr
        swap; · iexact H6
        ipureintro
        exact readD_out c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ (400 * (t.val % 25)) (off2_eq t)
      · -- a point of phase 1 but the last
        have hc3 : ¬cond3 (grid0.coords t) := fun h => h3 ((hcond3 t).mp h)
        iintro ⟨⟨⟨HS0, ⟨%d, %hd, HS1⟩⟩, Hg⟩, Ho, H0, H1, H2, H3, H4, H5, H6⟩
        obtain rfl : d = S2 m c := agree_all _ _ (by rwa [show 400 * min t.val 25 = 10000 by omega] at hd)
        iapply ((runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 (iblk m c 1 t) (iblk m c 5 t) (Y 6) (S2 m c)).2 Set.univ _)
        isplitl [H1]; · iexact H1
        isplitl [H5]; · iexact H5
        isplitl [H6]; · iexact H6
        isplitl [HS1]; · iexact HS1
        iintro ⟨H1, H5, H6, HS1⟩
        isplitl [HS0 HS1 Hg]
        · isplitl [HS0 HS1]
          · isplitl [HS0]; · iexact HS0
            iexists (S2 m c); isplitr
            · ipureintro; exact fun y _ => rfl
            iexact HS1
          iexact Hg
        isplitl [Ho]; · iexact Ho
        isplitl [H0]
        · iexists _; isplitr; · ipureintro; exact (after0 m c t _ _).mpr rfl
          iexact H0
        isplitl [H1]
        · iexists _; isplitr; · ipureintro; exact (after1 m c t _ _).mpr rfl
          iexact H1
        isplitl [H2]
        · iexists _; isplitr; · ipureintro; exact (after2 m c t _ _).mpr rfl
          iexact H2
        isplitl [H3]
        · iexists _; isplitr; · ipureintro; exact (after3 m c t _ _).mpr rfl
          iexact H3
        isplitl [H4]
        · iexists _; isplitr; · ipureintro; exact (after4 m c t _ _).mpr rfl
          iexact H4
        isplitl [H5]
        · iexists _; isplitr; · ipureintro; exact (after5 m c t _ _).mpr rfl
          iexact H5
        iexists (putRows (400 * (t.val % 25)) (h2blk m c t) (Y 6)); isplitr
        · ipureintro; refine (after6 m c t _ _).mpr ?_; unfold After6; rw [if_neg h1, if_pos (by omega)]
        unfold owns; iexists _; isplitr
        swap; · iexact H6
        ipureintro
        exact readC_out c _ (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 hc3 _ _ _ _ (400 * (t.val % 25)) (off2_eq t)

/-- The library's body obligation, at every point. -/
theorem body_obligation (c : Dev nD) : (rdat (F := F) m c).BodyObligation (defs₀ (F := F)) Variants.none () Set.univ := fun t Y hY => by
  rw [bigSep_W0, bigSep_W0]
  exact sound_body m c t Y hY

end Cert.KernelIdeal.Body

end
-- ==== Proof.IRun.lean ====
/-
  The run of the whole program: every weakly fair execution terminates without a fault, the argument arrays end as
  launched, and the result array ends holding the column-wise log-softmax of h2: the output window is written back
  once, after the last point, and its block is the whole array.
-/
import proofs.«120118_g652835029062_cont_sun_m_363_5_alg».proof.Proof.IBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_eq (c : Dev nD) (w : Fin cfg0.W) : (rdat m c).share w = fullShare := by
  unfold RDat.share; split <;> rfl

theorem hin (c : Dev nD) : Pipeline.ΦA spec0 c ⊢ (rdat m c).Φ 0 := by
  rw [show (rdat m c).Φ 0 = Pipeline.ΦA spec0 c from rfl]

theorem hout (c : Dev nD) : (rdat m c).Φ (Fin.last cfg0.N) ⊢ Pipeline.ΦA spec0 c := by
  rw [show (rdat m c).Φ (Fin.last cfg0.N) = Phi m c cfg0.N from rfl, Phi_pos m c _ (by rw [N50]; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates, nothing faulting, with every array of the pipeline at some contents
    the proof data allows after every write-back and every other unscoped buffer as the region found it. -/
theorem run_main : θ_run defs (onTc (τ := τ) (main (F := F))) (s₀ m ρ) (RDat.FramePost cfg0 (rdat m) (V m)) :=
  RDat.θ_run_frame_track cfgs (0 : Fin 1) launch0 defs₀ Variants.none (rdat m) m ρ main
    (hbody := body_obligation m) (hshare := share_eq m) (howed := fun _ _ => rfl) (V := V m)
    (hmain := hmain m Variants.none) (hA := A_eq m) (hin := hin m) (hout := hout m)

/-- The output window's block index is (0, 0) at every point: its block is the whole array. -/
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Before the last point's write-back the result array is as the region found it. -/
theorem arr6_before (c : Dev nD) : ∀ n, n ≤ 49 → (rdat m c).ArrAt 6 n = fun G => G = (rdat m c).A 6
  | 0, _ => rfl
  | n + 1, hn => by
    have hlt : n < cfg0.N := by rw [N50]; omega
    have e := (rdat m c).ArrAt_succ 6 ⟨n, hlt⟩
    rw [if_neg (fun h => absurd ((flush0_6 ⟨n, hlt⟩).mp h) (by simp only; omega))] at e
    exact e.trans (arr6_before c n (by omega))

/-- THE RESULT ARRAY: whatever the proof data allows it to hold after the run is the kernel's result. -/
theorem arr6 (c : Dev nD) (G : S10000x16.Idx → Elt F .f32) (h : (rdat m c).ArrAt 6 cfg0.N G) : G = Out m c := by
  have hlt : 49 < cfg0.N := by rw [N50]; omega
  have h' : (rdat m c).ArrAt 6 (49 + 1) G := (congrArg (fun n => (rdat m c).ArrAt 6 n G) N50).mp h
  have e := (rdat m c).ArrAt_succ 6 ⟨49, hlt⟩
  rw [if_pos ((flush0_6 ⟨49, hlt⟩).mpr (by simp only))] at e
  have h'' : (rdat m c).ArrStep 6 ⟨49, hlt⟩ ((rdat m c).ArrAt 6 49) G := (congrFun e G).mp h'
  obtain ⟨G₀, X, -, ⟨Y, hY, hR⟩, hG⟩ := h''
  have hR' := (after6 m c _ Y X).mp hR
  unfold After6 at hR'
  simp only at hR'
  rw [if_neg (by omega), if_neg (by omega)] at hR'
  have hA := finds6 m c 49 ⟨49, hlt⟩ rfl Y hY
  have hfull : putRows (400 * (49 % 25)) (h2blk m c ⟨49, hlt⟩) Y = H2 m c :=
    agree_all _ _ (agree_step (H2 m c) (h2blk m c ⟨49, hlt⟩) 24 Y (fun y h => h2blk_eq m c ⟨49, hlt⟩ 24 rfl y h) hA)
  rw [hfull] at hR'
  have hr : ((cfg0.win 6).blk ⟨49, hlt⟩).view.read (Elt F) G = X := by rw [hG]; exact View.read_write_univ _ _
  rw [hR'] at hr
  funext i
  have hi := congrFun hr i
  have hemb : ((cfg0.win 6).blk ⟨49, hlt⟩).view.emb i = i := by
    obtain ⟨i0, i1⟩ := index6 ⟨49, hlt⟩
    funext a; apply Fin.ext
    match a with
    | ⟨0, _⟩ => show win0_6.index ⟨49, hlt⟩ (0 : Fin 2) * 10000 + 1 * (i 0).val = (i 0).val; omega
    | ⟨1, _⟩ => show win0_6.index ⟨49, hlt⟩ (1 : Fin 2) * 16 + 1 * (i 1).val = (i 1).val; omega
  have hi' : G (((cfg0.win 6).blk ⟨49, hlt⟩).view.emb i) = Out m c i := hi
  rwa [hemb] at hi'

/-- THE RUN, READ: the result array at the kernel's result, the argument arrays as launched. -/
theorem run_value : θ_run defs (onTc (τ := τ) (main (F := F))) ⟨m, fun _ => 0, ρ⟩ (fun r => ∀ c : Dev nD,
      r.2.mem ((c.tc : Thread nD τ).loc main_v2) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨arr6 m c _ ((h c).1 6),
      ((congrFun ((rdat m c).ArrAt_in 0 rfl cfg0.N) _).mp ((h c).1 0)).trans ((A_eq m c 0).trans (V_main_arg0 m c)),
      ((congrFun ((rdat m c).ArrAt_in 1 rfl cfg0.N) _).mp ((h c).1 1)).trans ((A_eq m c 1).trans (V_main_arg1 m c)),
      ((congrFun ((rdat m c).ArrAt_in 2 rfl cfg0.N) _).mp ((h c).1 2)).trans ((A_eq m c 2).trans (V_main_arg2 m c)),
      ((h c).2 main_arg3 (Pipeline.mem_restRefs_of main_arg3 (by decide) (by decide))).trans (V_main_arg3 m c),
      ((congrFun ((rdat m c).ArrAt_in 4 rfl cfg0.N) _).mp ((h c).1 4)).trans ((A_eq m c 4).trans (V_main_arg4 m c)),
      ((h c).2 main_arg5 (Pipeline.mem_restRefs_of main_arg5 (by decide) (by decide))).trans (V_main_arg5 m c)⟩)
    (run_main m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Body

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.LibAxisFolds.lean ====
/-
  Sums and maxima of a two-axis array of extended reals along one of its axes, read at an index, and the one entry
  of a one-by-one array. Every float operation is the exact one; the extents are variables, only the ranks and the
  axis lists are literal.

  * `colSum_apply`: the sum of an a-by-b array along its first axis, read at column c, is the sum over k < a of
    the entries (k, c); the accumulator word is the sum's neutral element and contributes nothing.
  * `rowMax_apply`: the maximum of an a-by-b array along its second axis, read at row r, is the fold of max, from
    the value the accumulator word denotes, over the entries (r, k), k < b.
  * `colMax_apply`: the maximum along the first axis, read at column c, is the same fold over the entries (k, c),
    k < a.
  * `extractAt_00`: the element extracted at position (0, 0) of a one-by-one array is its entry (0, 0).
-/
import Idealize.ShloMosaic.Lib.ValueIdx
import Idealize.ShloMosaic.PureOps.Ideal.Laws

noncomputable section

open scoped BigOperators

namespace Cert.LibAxisFolds

open Idealize.ShloMosaic Idealize.ShloMosaic.ValueIdx

/-- The sum of an `[a, b]` array along its first axis, read at column `c`: the sum over that column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

/-- The maximum of an `[a, b]` array along its second axis, read at row `r`: the maximum over that row, from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine Finset.fold_congr fun k _ => congrArg src ?_
  funext ax; apply Fin.ext
  match ax with
  | ⟨0, _⟩ => rfl
  | ⟨1, _⟩ => rfl

/-- The maximum of an `[a, b]` array along its first axis, read at column `c`. -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine Finset.fold_congr fun k _ => congrArg src ?_
  funext ax; apply Fin.ext
  match ax with
  | ⟨0, _⟩ => rfl
  | ⟨1, _⟩ => rfl

/-- The one entry of a `[1, 1]` array, extracted at position (0, 0). -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibAxisFolds

end
-- ==== Proof.KValueAt.lean ====
/-
  The kernel's four stored values read at an index, at the exact reals: X·W1; relu(A·s1 + b1)·W2 on a block of rows;
  A·s2 + b2 on a block of rows; and the column-wise log-softmax  h − (log Σ exp(h − M) + M),  M the column's maximum
  taken from −∞.  Stated over variables of the literal vector types.
-/
import proofs.«120118_g652835029062_cont_sun_m_363_5_alg».proof.Proof.IRun
import proofs.«120118_g652835029062_cont_sun_m_363_5_alg».proof.Proof.LibPlainDot
import proofs.«120118_g652835029062_cont_sun_m_363_5_alg».proof.Proof.LibAxisFolds
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.ValueAt

open Cert.KernelIdeal Cert.KernelIdeal.Gen Cert.KernelIdeal.Body
open Idealize.ShloMosaic Idealize.ShloMosaic.ValueIdx Idealize.ShloMosaic.PlainDot

/-- X·W1 at (k, j). -/
theorem pay1_apply (x0 : Vec Ideal S10000x128 .f32) (x2 : Vec Ideal S128x16 .f32) (k : Fin 10000) (j : Fin 16) :
    k0_pay1 (F := Ideal) x0 x2 (ix2 k j) = ∑ l : Fin 128, x0 (ix2 k l) * x2 (ix2 l j) := by
  unfold k0_pay1
  rw [shapeCast_self]
  exact matmul_zero_plain _ rfl rfl rfl rfl rfl rfl none x0 x2 (ix2 k j)

/-- relu(A·s1 + b1)·W2 at row p of the block, column q. -/
theorem pay2_apply (x1 : Vec Ideal S400x10000 .f32) (xs0 : Vec Ideal S10000x16 .f32) (x3 : Vec Ideal S1x16 .f32)
    (x4 : Vec Ideal S16x16 .f32) (p : Fin 400) (q : Fin 16) :
    k0_pay2 (F := Ideal) x1 xs0 x3 x4 (ix2 p q)
      = ∑ j : Fin 16, max ((∑ k : Fin 10000, x1 (ix2 p k) * xs0 (ix2 k j)) + x3 (ix2 (0 : Fin 1) j)) (Ideal.ofBits .f32 0x00000000#32)
          * x4 (ix2 j q) := by
  unfold k0_pay2
  rw [shapeCast_self, shapeCast_self]
  refine (matmul_zero_plain _ rfl rfl rfl rfl rfl rfl none _ x4 (ix2 p q)).trans
    (Finset.sum_congr rfl fun j _ => congrArg (· * x4 (ix2 j q)) ?_)
  exact congrArg₂ max (congrArg₂ (· + ·) (matmul_zero_plain _ rfl rfl rfl rfl rfl rfl none x1 xs0 (ix2 p j))
    (broadcastTo_1b_ab_apply x3 _ p j)) rfl

/-- A·s2 + b2 at row p of the block, column q. -/
theorem pay3_apply (x1 : Vec Ideal S400x10000 .f32) (xs1 : Vec Ideal S10000x16 .f32) (x5 : Vec Ideal S1x16 .f32)
    (p : Fin 400) (q : Fin 16) :
    k0_pay3 (F := Ideal) x1 xs1 x5 (ix2 p q) = (∑ k : Fin 10000, x1 (ix2 p k) * xs1 (ix2 k q)) + x5 (ix2 (0 : Fin 1) q) := by
  unfold k0_pay3
  rw [shapeCast_self]
  exact congrArg₂ (· + ·) (matmul_zero_plain _ rfl rfl rfl rfl rfl rfl none x1 xs1 (ix2 p q))
    (broadcastTo_1b_ab_apply x5 _ p q)

/-- The column maximum the kernel takes, from −∞. -/
abbrev colMax (v : Vec Ideal S10000x16 .f32) (q : Fin 16) : EReal :=
  (Finset.univ : Finset (Fin 10000)).fold max (Ideal.ofBits .f32 0xFF800000#32) (fun r => v (ix2 r q))

/-- A difference with one row broadcast down the rows, at (r, q). -/
theorem sub_row_apply (v : Vec Ideal S10000x16 .f32) (w : FVec Ideal S1x16 .f32) (r : Fin 10000) (q : Fin 16) :
    subf v (broadcastTo S10000x16 w broadcasts_S1x16_S10000x16) (ix2 r q) = v (ix2 r q) - w (ix2 (0 : Fin 1) q) :=
  congrArg (v (ix2 r q) - ·) (broadcastTo_1b_ab_apply w _ r q)

/-- The column maxima as a one-row array. -/
theorem colmax_row (v : Vec Ideal S10000x16 .f32) (acc : BitVec FTy.f32.bits) (hφ : FKind.Formats FTy.f32)
    (hacc : acc = FKind.maximumf.neutral FTy.f32 hφ) (u : Fin 1) (c : Fin 16) :
    shapeCast S1x16 (multiReduction (F := Ideal) .maximumf [0] S16 v acc reduces_S10000x16_S16 hφ hacc) shapeCasts_S16_S1x16 (ix2 u c)
      = (Finset.univ : Finset (Fin 10000)).fold max (Ideal.ofBits .f32 acc) (fun r => v (ix2 r c)) :=
  (shapeCast_a_1a_apply _ _ u c).trans (Cert.LibAxisFolds.colMax_apply v acc reduces_S10000x16_S16 hφ hacc c)

/-- The column sums as a one-row array. -/
theorem colsum_row (e : Vec Ideal S10000x16 .f32) (acc : BitVec FTy.f32.bits) (hφ : FKind.Formats FTy.f32)
    (hacc : acc = FKind.add.neutral FTy.f32 hφ) (u : Fin 1) (c : Fin 16) :
    shapeCast S1x16 (multiReduction (F := Ideal) .add [0] S16 e acc reduces_S10000x16_S16 hφ hacc) shapeCasts_S16_S1x16 (ix2 u c)
      = ∑ k : Fin 10000, e (ix2 k c) :=
  (shapeCast_a_1a_apply _ _ u c).trans (Cert.LibAxisFolds.colSum_apply e acc reduces_S10000x16_S16 hφ hacc c)

/-- The column-wise log-softmax at (r, q), as the kernel groups it. -/
theorem pay4_apply (v : Vec Ideal S10000x16 .f32) (r : Fin 10000) (q : Fin 16) :
    k0_pay4 (F := Ideal) v (ix2 r q)
      = v (ix2 r q) - (Ideal.log (∑ k : Fin 10000, Ideal.exp (v (ix2 k q) - colMax v q)) + colMax v q) := by
  unfold k0_pay4
  rw [shapeCast_self]
  refine (sub_row_apply v _ r q).trans (congrArg (v (ix2 r q) - ·) ?_)
  refine congrArg₂ (· + ·) (congrArg Ideal.log ?_) (colmax_row v _ _ _ 0 q)
  refine (colsum_row _ _ _ _ 0 q).trans (Finset.sum_congr rfl fun k _ => ?_)
  exact congrArg Ideal.exp ((sub_row_apply v _ k q).trans (congrArg (v (ix2 k q) - ·) (colmax_row v _ _ _ 0 q)))

end Cert.KernelIdeal.ValueAt

end
-- ==== Proof.LibLogSoftmax.lean ====
/-
  The column-wise log-softmax written two ways.  For a column h of real numbers with maximum M,
      h r − (log Σ exp(h k − M) + M)   and   (h r − M) − log (0 + Σ exp(h k − M))
  are the same extended real: for real a and m and ANY extended real L, a − (L + m) = (a − m) − L, so nothing is asked
  of the logarithm; but M must be a real number, which it is when the column is non-empty and real, the fold of max
  starting from −∞ being one of the column's entries.  On the extended reals the regrouping fails for an infinite entry,
  which is why the entries are asked to be real.
-/
import Idealize.ShloMosaic.PureOps.Ideal
import Idealize.ShloMosaic.PureOps.Ideal.Laws

noncomputable section

open scoped BigOperators

namespace Cert.LibLogSoftmax

open Idealize.ShloMosaic

/-- For real a, m and any extended real L: a − (L + m) = (a − m) − L. -/
theorem sub_add_regroup (a m : ℝ) (L : EReal) : (a : EReal) - (L + (m : EReal)) = ((a : EReal) - (m : EReal)) - L := by
  induction L using EReal.rec with
  | bot => rw [EReal.bot_add, ← EReal.coe_sub, EReal.coe_sub_bot, EReal.coe_sub_bot]
  | coe l => rw [← EReal.coe_add, ← EReal.coe_sub, ← EReal.coe_sub, ← EReal.coe_sub]; congr 1; ring
  | top => rw [EReal.top_add_coe, EReal.sub_top, EReal.sub_top]

/-- The fold of max from −∞ over a non-empty finite set is one of the values. -/
theorem fold_max_bot_mem {ι : Type*} (s : Finset ι) (hs : s.Nonempty) (f : ι → EReal) : ∃ k ∈ s, s.fold max ⊥ f = f k := by
  induction hs using Finset.Nonempty.cons_induction with
  | singleton a => exact ⟨a, Finset.mem_singleton_self a, by rw [Finset.fold_singleton]; exact max_eq_left bot_le⟩
  | cons a s ha hs ih =>
    obtain ⟨k, hk, e⟩ := ih
    rw [Finset.fold_cons, e]
    rcases max_choice (f a) (f k) with h | h
    · exact ⟨a, Finset.mem_cons_self a s, h⟩
    · exact ⟨k, Finset.mem_cons.mpr (Or.inr hk), h⟩

/-- The maximum of a non-empty column of real numbers is a real number. -/
theorem isReal_fold_max {ι : Type*} [Fintype ι] [Nonempty ι] (f : ι → EReal) (hf : ∀ k, ∃ x : ℝ, f k = (x : EReal)) :
    ∃ x : ℝ, (Finset.univ : Finset ι).fold max ⊥ f = (x : EReal) := by
  obtain ⟨k, -, e⟩ := fold_max_bot_mem Finset.univ Finset.univ_nonempty f
  rw [e]; exact hf k

/-- THE LAW: the two spellings of the log-softmax of a real column agree, entry by entry.  `c` is the accumulator
    the maximum starts from (−∞) and `z` the one the sum starts from (0). -/
theorem logsoftmax_regroup {ι : Type*} [Fintype ι] [Nonempty ι] (h : ι → EReal) (hh : ∀ k, ∃ x : ℝ, h k = (x : EReal))
    (c z : EReal) (hc : c = ⊥) (hz : z = 0) (r : ι) :
    h r - (Ideal.log (∑ k, Ideal.exp (h k - (Finset.univ : Finset ι).fold max c h)) + (Finset.univ : Finset ι).fold max c h)
      = (h r - max c ((Finset.univ : Finset ι).fold max c h))
        - Ideal.log (z + ∑ k, Ideal.exp (h k - max c ((Finset.univ : Finset ι).fold max c h))) := by
  subst hc hz
  rw [max_eq_right bot_le, zero_add]
  obtain ⟨m, hm⟩ := isReal_fold_max h hh
  obtain ⟨a, ha⟩ := hh r
  rw [hm, ha]
  exact sub_add_regroup a m _

end Cert.LibLogSoftmax

end
-- ==== Proof.LibBatchNorm.lean ====
/-
  Batch normalisation over the extended reals, for arrays all of whose entries are real numbers.

  The one-pass statistics  mean = (Σ h)/n,  var = (Σ h²)/n − mean²  and the two-pass statistics
  mean = (0 + Σ h)/n,  var = (0 + Σ (h − mean)²)/n  of a column h : R → EReal agree when n = |R| ≠ 0 and every
  entry of h is a real number: on ℝ this is  Σ (h − m)² = Σ h² − 2 m Σ h + |R| m²  with  m = (Σ h)/|R|.
  On the extended reals the identity needs the entries real (an infinite entry makes one side −∞ and the other +∞),
  so the module also carries the closure of "is a real number" under the operations a normalised two-layer
  perceptron is made of: sums, products, differences, finite sums, a quotient by a nonzero real, a maximum, and
  the reciprocal square root of a positive real.
-/
import Idealize.ShloMosaic.PureOps.Ideal
import Idealize.ShloMosaic.PureOps.Ideal.Laws

noncomputable section

namespace Cert.LibBatchNorm

open Idealize.ShloMosaic

/-! ## Real entries -/

/-- An extended real that is an ordinary real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real number by a nonzero real is a real number. -/
theorem IsReal.div_coe {x : EReal} (hx : IsReal x) {n : ℝ} (hn : n ≠ 0) : IsReal (Ideal.div x (n : EReal)) := by
  rw [Ideal.div_coe hn]; exact hx.mul (isReal_coe _)

/-- The reciprocal square root of a positive real is a real number. -/
theorem isReal_rsqrt_pos {r : ℝ} (hr : 0 < r) : IsReal (Ideal.rsqrt (r : EReal)) := by
  have : Ideal.rsqrt (r : EReal) = (((Real.sqrt r)⁻¹ : ℝ) : EReal) := by
    rw [Ideal.rsqrt_coe, if_neg (not_lt.mpr hr.le), if_neg hr.ne']
  rw [this]; exact isReal_coe _

/-! ## The two ways to a variance -/

/-- On ℝ: the mean of the squares minus the square of the mean is the mean of the squared deviations, for a
    family indexed by a type of `n` elements. -/
theorem var_identity {R : Type*} [Fintype R] (f : R → ℝ) (n : ℝ) (hn : n ≠ 0) (hc : (Fintype.card R : ℝ) = n) :
    (∑ r, f r * f r) * (1 / n) - ((∑ r, f r) * (1 / n)) * ((∑ r, f r) * (1 / n))
      = (∑ r, (f r - (∑ r, f r) * (1 / n)) * (f r - (∑ r, f r) * (1 / n))) * (1 / n) := by
  have h1 : ∀ m : ℝ, ∑ r, (f r - m) * (f r - m) = (∑ r, f r * f r) - 2 * m * (∑ r, f r) + n * (m * m) := by
    intro m
    have e : ∀ r, (f r - m) * (f r - m) = f r * f r - 2 * m * f r + m * m := fun r => by ring
    simp only [e, Finset.sum_add_distrib, Finset.sum_sub_distrib, ← Finset.mul_sum, Finset.sum_const,
      Finset.card_univ, nsmul_eq_mul, hc]
    ring
  rw [h1]
  field_simp
  ring

variable {R : Type*} [Fintype R]

/-- On the extended reals, for a column of real numbers: the one-pass variance is the two-pass variance. -/
theorem var_eq (h : R → EReal) (hh : ∀ r, IsReal (h r)) (n : ℝ) (hn : n ≠ 0) (hc : (Fintype.card R : ℝ) = n) :
    Ideal.div (∑ r, h r * h r) (n : EReal) - Ideal.div (∑ r, h r) (n : EReal) * Ideal.div (∑ r, h r) (n : EReal)
      = Ideal.div (0 + ∑ r, (h r - Ideal.div (0 + ∑ r, h r) (n : EReal)) * (h r - Ideal.div (0 + ∑ r, h r) (n : EReal)))
          (n : EReal) := by
  choose f hf using hh
  obtain rfl : h = fun r => (f r : EReal) := funext hf
  simp only [zero_add, Ideal.div_coe hn, ← EReal.coe_mul, ← coe_sum, ← EReal.coe_sub]
  exact congrArg _ (var_identity f n hn hc)

/-- The two-pass variance of a column of real numbers is a nonnegative real number. -/
theorem var_real_nonneg (h : R → EReal) (hh : ∀ r, IsReal (h r)) (n : ℝ) (hn : 0 < n) :
    ∃ v : ℝ, 0 ≤ v ∧ Ideal.div (0 + ∑ r, (h r - Ideal.div (0 + ∑ r, h r) (n : EReal)) * (h r - Ideal.div (0 + ∑ r, h r) (n : EReal)))
          (n : EReal) = (v : EReal) := by
  choose f hf using hh
  obtain rfl : h = fun r => (f r : EReal) := funext hf
  simp only [zero_add, Ideal.div_coe hn.ne', ← EReal.coe_mul, ← coe_sum, ← EReal.coe_sub]
  exact ⟨_, mul_nonneg (Finset.sum_nonneg fun r _ => mul_self_nonneg _) (by positivity), rfl⟩

end Cert.LibBatchNorm

end
-- ==== Proof.GcnSpec.lean ====
/-
  The two-layer graph convolution as plain sums over coordinates, on the extended reals, and its two spellings of the
  final column-wise log-softmax.  For features X (10000 × 128), adjacency A (10000 × 10000), weights W1 (128 × 16),
  W2 (16 × 16) and biases b1, b2 (16):
      s1 = X·W1,   h1 = max(A·s1 + b1, 0),   s2 = h1·W2,   h2 = A·s2 + b2,
  and, M q being the maximum of column q of h2 taken from −∞,
      kernel:     h2 (r,q) − (log Σ_k exp(h2 (k,q) − M q) + M q)
      reference:  (h2 (r,q) − max(−∞, M q)) − log (0 + Σ_k exp(h2 (k,q) − max(−∞, M q))).
  When every input entry is a real number so is every entry of h2, and the two spellings agree (LibLogSoftmax).
-/
import proofs.«120118_g652835029062_cont_sun_m_363_5_alg».proof.Proof.LibLogSoftmax
import proofs.«120118_g652835029062_cont_sun_m_363_5_alg».proof.Proof.LibBatchNorm
import Idealize.ShloMosaic.Lib.ValueIdx

noncomputable section

open scoped BigOperators

namespace Cert.GcnSpec

open Idealize.ShloMosaic Idealize.ShloMosaic.ValueIdx Cert.LibBatchNorm

/-- An extended-real matrix and vector of literal extents. -/
abbrev Mat (a b : ℕ) : Type := (⟨2, ![a, b]⟩ : Shape).Idx → EReal
abbrev Vct (a : ℕ) : Type := (⟨1, ![a]⟩ : Shape).Idx → EReal

/-- The value of the f32 word of +0.0 and of −∞, left as the words' values. -/
abbrev zero32 : EReal := Ideal.ofBits .f32 0x00000000#32
abbrev ninf32 : EReal := Ideal.ofBits .f32 0xFF800000#32

theorem zero32_eq : zero32 = 0 := Ideal.ofBits_zero_f32
theorem ninf32_eq : ninf32 = ⊥ := by simp [ninf32, Ideal.ofBits, Ideal.ieee]

variable (X : Mat 10000 128) (A : Mat 10000 10000) (W1 : Mat 128 16) (b1 : Vct 16) (W2 : Mat 16 16) (b2 : Vct 16)

def s1 (k : Fin 10000) (j : Fin 16) : EReal := ∑ l : Fin 128, X (ix2 k l) * W1 (ix2 l j)

def h1 (r : Fin 10000) (j : Fin 16) : EReal := max ((∑ k : Fin 10000, A (ix2 r k) * s1 X W1 k j) + b1 (ix1 j)) zero32

def s2 (k : Fin 10000) (q : Fin 16) : EReal := ∑ j : Fin 16, h1 X A W1 b1 k j * W2 (ix2 j q)

def h2 (r : Fin 10000) (q : Fin 16) : EReal := (∑ k : Fin 10000, A (ix2 r k) * s2 X A W1 b1 W2 k q) + b2 (ix1 q)

/-- The maximum of column q of h2, from −∞. -/
def colMax (q : Fin 16) : EReal := (Finset.univ : Finset (Fin 10000)).fold max ninf32 (fun r => h2 X A W1 b1 W2 b2 r q)

/-- The result as the kernel groups it. -/
def kernelOut (r : Fin 10000) (q : Fin 16) : EReal :=
  h2 X A W1 b1 W2 b2 r q
    - (Ideal.log (∑ k : Fin 10000, Ideal.exp (h2 X A W1 b1 W2 b2 k q - colMax X A W1 b1 W2 b2 q)) + colMax X A W1 b1 W2 b2 q)

/-- The result as the reference groups it. -/
def referenceOut (r : Fin 10000) (q : Fin 16) : EReal :=
  (h2 X A W1 b1 W2 b2 r q - max ninf32 (colMax X A W1 b1 W2 b2 q))
    - Ideal.log (zero32 + ∑ k : Fin 10000, Ideal.exp (h2 X A W1 b1 W2 b2 k q - max ninf32 (colMax X A W1 b1 W2 b2 q)))

section Real

variable (hX : ∀ i, IsReal (X i)) (hA : ∀ i, IsReal (A i)) (hW1 : ∀ i, IsReal (W1 i)) (hb1 : ∀ i, IsReal (b1 i))
  (hW2 : ∀ i, IsReal (W2 i)) (hb2 : ∀ i, IsReal (b2 i))

include hX hW1 in
theorem isReal_s1 (k : Fin 10000) (j : Fin 16) : IsReal (s1 X W1 k j) :=
  IsReal.sum _ fun l _ => (hX _).mul (hW1 _)

include hX hA hW1 hb1 in
theorem isReal_h1 (r : Fin 10000) (j : Fin 16) : IsReal (h1 X A W1 b1 r j) :=
  ((IsReal.sum _ fun k _ => (hA _).mul (isReal_s1 X W1 hX hW1 k j)).add (hb1 _)).max (by rw [zero32_eq]; exact isReal_zero)

include hX hA hW1 hb1 hW2 in
theorem isReal_s2 (k : Fin 10000) (q : Fin 16) : IsReal (s2 X A W1 b1 W2 k q) :=
  IsReal.sum _ fun j _ => (isReal_h1 X A W1 b1 hX hA hW1 hb1 k j).mul (hW2 _)

include hX hA hW1 hb1 hW2 hb2 in
theorem isReal_h2 (r : Fin 10000) (q : Fin 16) : IsReal (h2 X A W1 b1 W2 b2 r q) :=
  (IsReal.sum _ fun k _ => (hA _).mul (isReal_s2 X A W1 b1 W2 hX hA hW1 hb1 hW2 k q)).add (hb2 _)

include hX hA hW1 hb1 hW2 hb2 in
/-- On real inputs the two groupings are one function. -/
theorem kernelOut_eq_referenceOut (r : Fin 10000) (q : Fin 16) :
    kernelOut X A W1 b1 W2 b2 r q = referenceOut X A W1 b1 W2 b2 r q := by
  haveI : Nonempty (Fin 10000) := ⟨⟨0, by omega⟩⟩
  unfold kernelOut referenceOut colMax
  exact Cert.LibLogSoftmax.logsoftmax_regroup (fun k : Fin 10000 => h2 X A W1 b1 W2 b2 k q)
    (fun k => isReal_h2 X A W1 b1 W2 b2 hX hA hW1 hb1 hW2 hb2 k q) ninf32 zero32 ninf32_eq zero32_eq r

end Real

end Cert.GcnSpec

end
-- ==== Proof.KAt.lean ====
/-
  The kernel's result read at an index is the specification's `kernelOut` of the launch arrays.  A window's block at a
  point is the array read at the block's offset: the adjacency block of point t starts at row 400 · (t % 25), every
  other block is its whole array, and the two bias rows are the bias vectors recast as 1 × 16 arrays before the region.
-/
import proofs.«120118_g652835029062_cont_sun_m_363_5_alg».proof.Proof.KValueAt
import proofs.«120118_g652835029062_cont_sun_m_363_5_alg».proof.Proof.GcnSpec

set_option maxRecDepth 16384

noncomputable section

open scoped BigOperators

namespace Cert.KernelIdeal.At

open Cert.KernelIdeal Cert.KernelIdeal.Gen Cert.KernelIdeal.Body Cert.KernelIdeal.ValueAt Cert.GcnSpec
open Idealize.ShloMosaic Idealize.ShloMosaic.TcCoe Idealize.ShloMosaic.ValueIdx Idealize.SL.Sem

variable (m : (ℓ : Loc nD τ sig) → Buf (Elt Ideal) ℓ) (c : Dev nD)

/-- The launch arrays as matrices and vectors. -/
abbrev a0 : Mat 10000 128 := m ((c.tc : Thread nD τ).loc main_arg0)
abbrev a1 : Mat 10000 10000 := m ((c.tc : Thread nD τ).loc main_arg1)
abbrev a2 : Mat 128 16 := m ((c.tc : Thread nD τ).loc main_arg2)
abbrev a3 : Vct 16 := m ((c.tc : Thread nD τ).loc main_arg3)
abbrev a4 : Mat 16 16 := m ((c.tc : Thread nD τ).loc main_arg4)
abbrev a5 : Vct 16 := m ((c.tc : Thread nD τ).loc main_arg5)

/-- The block indices, decided over the grid: the adjacency block moves with the row block, every other stays at 0. -/
theorem index_facts : ∀ t : Fin cfg0.N,
    win0_0.index t (0 : Fin 2) = 0 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The two bias rows as the region finds them: the bias vectors recast to one row. -/
theorem V_v0 : (V m c main_v0 : S1x16.Idx → EReal) = shapeCast S1x16 (a3 m c) shapeCasts_S16_S1x16 := by
  dsimp only [Gen.V, Gen.hostOps0]; after_results; rfl
theorem V_v1 : (V m c main_v1 : S1x16.Idx → EReal) = shapeCast S1x16 (a5 m c) shapeCasts_S16_S1x16 := by
  dsimp only [Gen.V, Gen.hostOps0]; after_results; rfl

theorem iblk0_at (t : Fin cfg0.N) (k : Fin 10000) (l : Fin 128) : iblk m c 0 t (ix2 k l) = a0 m c (ix2 k l) := by
  show V m c main_arg0 (((cfg0.win 0).blk t).view.emb (ix2 k l)) = _
  rw [V_main_arg0]
  obtain ⟨e0, e1, -⟩ := index_facts t
  refine congrArg (a0 m c) (funext fun a => Fin.ext ?_)
  match a with
  | ⟨0, _⟩ => show win0_0.index t (0 : Fin 2) * 10000 + 1 * k.val = k.val; omega
  | ⟨1, _⟩ => show win0_0.index t (1 : Fin 2) * 128 + 1 * l.val = l.val; omega

theorem iblk1_at (t : Fin cfg0.N) (p : Fin 400) (k : Fin 10000) :
    iblk m c 1 t (ix2 p k) = a1 m c (ix2 ⟨400 * (t.val % 25) + p.val, by have := p.isLt; omega⟩ k) := by
  show V m c main_arg1 (((cfg0.win 1).blk t).view.emb (ix2 p k)) = _
  rw [V_main_arg1]
  obtain ⟨-, -, e0, e1, -⟩ := index_facts t
  refine congrArg (a1 m c) (funext fun a => Fin.ext ?_)
  match a with
  | ⟨0, _⟩ => show win0_1.index t (0 : Fin 2) * 400 + 1 * p.val = 400 * (t.val % 25) + p.val; omega
  | ⟨1, _⟩ => show win0_1.index t (1 : Fin 2) * 10000 + 1 * k.val = k.val; omega

theorem iblk2_at (t : Fin cfg0.N) (l : Fin 128) (j : Fin 16) : iblk m c 2 t (ix2 l j) = a2 m c (ix2 l j) := by
  show V m c main_arg2 (((cfg0.win 2).blk t).view.emb (ix2 l j)) = _
  rw [V_main_arg2]
  obtain ⟨-, -, -, -, e0, e1, -⟩ := index_facts t
  refine congrArg (a2 m c) (funext fun a => Fin.ext ?_)
  match a with
  | ⟨0, _⟩ => show win0_2.index t (0 : Fin 2) * 128 + 1 * l.val = l.val; omega
  | ⟨1, _⟩ => show win0_2.index t (1 : Fin 2) * 16 + 1 * j.val = j.val; omega

theorem iblk3_at (t : Fin cfg0.N) (j : Fin 16) : iblk m c 3 t (ix2 (0 : Fin 1) j) = a3 m c (ix1 j) := by
  show V m c main_v0 (((cfg0.win 3).blk t).view.emb (ix2 (0 : Fin 1) j)) = _
  obtain ⟨-, -, -, -, -, -, e0, e1, -⟩ := index_facts t
  have he : ((cfg0.win 3).blk t).view.emb (ix2 (0 : Fin 1) j) = ix2 (0 : Fin 1) j := funext fun a => Fin.ext (by
    match a with
    | ⟨0, _⟩ => show win0_3.index t (0 : Fin 2) * 1 + 1 * 0 = 0; omega
    | ⟨1, _⟩ => show win0_3.index t (1 : Fin 2) * 16 + 1 * j.val = j.val; omega)
  rw [he, V_v0]
  exact shapeCast_a_1a_apply _ _ 0 j

theorem iblk4_at (t : Fin cfg0.N) (j q : Fin 16) : iblk m c 4 t (ix2 j q) = a4 m c (ix2 j q) := by
  show V m c main_arg4 (((cfg0.win 4).blk t).view.emb (ix2 j q)) = _
  rw [V_main_arg4]
  obtain ⟨-, -, -, -, -, -, -, -, e0, e1, -⟩ := index_facts t
  refine congrArg (a4 m c) (funext fun a => Fin.ext ?_)
  match a with
  | ⟨0, _⟩ => show win0_4.index t (0 : Fin 2) * 16 + 1 * j.val = j.val; omega
  | ⟨1, _⟩ => show win0_4.index t (1 : Fin 2) * 16 + 1 * q.val = q.val; omega

theorem iblk5_at (t : Fin cfg0.N) (q : Fin 16) : iblk m c 5 t (ix2 (0 : Fin 1) q) = a5 m c (ix1 q) := by
  show V m c main_v1 (((cfg0.win 5).blk t).view.emb (ix2 (0 : Fin 1) q)) = _
  obtain ⟨-, -, -, -, -, -, -, -, -, -, e0, e1⟩ := index_facts t
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 16 + 1 * q.val = q.val; omega)
  rw [he, V_v1]
  exact shapeCast_a_1a_apply _ _ 0 q

/-- The first scratch is X·W1. -/
theorem S1_at (k : Fin 10000) (j : Fin 16) : S1 m c (ix2 k j) = s1 (a0 m c) (a2 m c) k j := by
  unfold S1
  rw [pay1_apply]
  unfold s1
  exact Finset.sum_congr rfl fun l _ => congrArg₂ (· * ·) (iblk0_at m c _ k l) (iblk2_at m c _ l j)

/-- The second scratch, once complete, is relu(A·s1 + b1)·W2. -/
theorem S2_at (k : Fin 10000) (q : Fin 16) :
    S2 m c (ix2 k q) = s2 (a0 m c) (a1 m c) (a2 m c) (a3 m c) (a4 m c) k q := by
  unfold S2 s2blk
  rw [pay2_apply]
  unfold s2 h1
  refine Finset.sum_congr rfl fun j _ => congrArg₂ (· * ·) (congrArg₂ max (congrArg₂ (· + ·) ?_ (iblk3_at m c _ j)) rfl) (iblk4_at m c _ j q)
  refine Finset.sum_congr rfl fun k' _ => congrArg₂ (· * ·) ?_ (S1_at m c k' j)
  rw [iblk1_at]
  refine congrArg (a1 m c) (funext fun a => Fin.ext ?_)
  match a with
  | ⟨0, _⟩ => show 400 * ((k.val / 400) % 25) + k.val % 400 = k.val; have := k.isLt; omega
  | ⟨1, _⟩ => rfl

/-- The rows stored into the output buffer are A·s2 + b2. -/
theorem H2_at (r : Fin 10000) (q : Fin 16) :
    H2 m c (ix2 r q) = h2 (a0 m c) (a1 m c) (a2 m c) (a3 m c) (a4 m c) (a5 m c) r q := by
  unfold H2 h2blk
  rw [pay3_apply]
  unfold h2
  refine congrArg₂ (· + ·) (Finset.sum_congr rfl fun k _ => congrArg₂ (· * ·) ?_ (S2_at m c k q)) (iblk5_at m c _ q)
  rw [iblk1_at]
  refine congrArg (a1 m c) (funext fun a => Fin.ext ?_)
  match a with
  | ⟨0, _⟩ => show 400 * ((25 + r.val / 400) % 25) + r.val % 400 = r.val; have := r.isLt; omega
  | ⟨1, _⟩ => rfl

/-- THE KERNEL'S RESULT AT AN INDEX. -/
theorem Out_at (r : Fin 10000) (q : Fin 16) :
    Out m c (ix2 r q) = kernelOut (a0 m c) (a1 m c) (a2 m c) (a3 m c) (a4 m c) (a5 m c) r q := by
  unfold Out
  rw [pay4_apply]
  unfold kernelOut
  have hM : ValueAt.colMax (H2 m c) q = GcnSpec.colMax (a0 m c) (a1 m c) (a2 m c) (a3 m c) (a4 m c) (a5 m c) q :=
    Finset.fold_congr fun k _ => H2_at m c k q
  exact congrArg₂ (· - ·) (H2_at m c r q) (congrArg₂ (· + ·)
    (congrArg Ideal.log (Finset.sum_congr rfl fun k _ => congrArg Ideal.exp (congrArg₂ (· - ·) (H2_at m c k q) hM))) hM)

end Cert.KernelIdeal.At

end
-- ==== Proof.RefAt.lean ====
/-
  The reference read at an index, stage by stage: its four products, the bias rows, the relu, and the log-softmax of
  the transposed array (a maximum along the long axis taken from −∞ and guarded by one more max with −∞, a sum
  from 0, a logarithm) are the specification's `referenceOut`.
-/
import proofs.«120118_g652835029062_cont_sun_m_363_5_alg».proof.Proof.RefReadP
import proofs.«120118_g652835029062_cont_sun_m_363_5_alg».proof.Proof.GcnSpec
import Idealize.ShloMosaic.Lib.ValueIdx
import Idealize.ShloMosaic.PureOps.Ideal.Laws

set_option maxRecDepth 16384

noncomputable section

open scoped BigOperators

namespace Cert.ReferenceIdeal.At

open Cert.ReferenceIdeal Cert.ReferenceIdeal.Gen Cert.ReferenceIdeal.ReadP Cert.GcnSpec
open Idealize.ShloMosaic Idealize.ShloMosaic.ValueIdx

/-- Two rank-2 indices with the same coordinates are one index. -/
macro "idx2" : tactic => `(tactic| exact funext fun a => Fin.ext (by match a with | ⟨0, _⟩ => rfl | ⟨1, _⟩ => rfl))
macro "idx1" : tactic => `(tactic| exact funext fun a => Fin.ext (by match a with | ⟨0, _⟩ => rfl))

variable (x0 : Mat 10000 128) (x1 : Mat 10000 10000) (x2 : Mat 128 16) (x3 : Vct 16) (x4 : Mat 16 16) (x5 : Vct 16)

theorem v0_at (k : Fin 10000) (j : Fin 16) : val_main_v0 (F := Ideal) x0 x2 (ix2 k j) = s1 x0 x2 k j := by
  rw [val_main_v0_apply]; unfold s1
  refine Finset.sum_congr rfl fun l _ => ?_
  exact congrArg₂ (· * ·) (congrArg x0 (by idx2)) (congrArg x2 (by idx2))

theorem v1_at (r : Fin 10000) (j : Fin 16) :
    val_main_v1 (F := Ideal) x0 x1 x2 (ix2 r j) = ∑ k : Fin 10000, x1 (ix2 r k) * s1 x0 x2 k j := by
  rw [val_main_v1_apply]
  refine Finset.sum_congr rfl fun k _ => ?_
  exact congrArg₂ (· * ·) (congrArg x1 (by idx2))
    ((congrArg (val_main_v0 (F := Ideal) x0 x2) (show ridx_main_v1 (ix2 r j) k = ix2 k j by idx2)).trans (v0_at x0 x2 k j))

theorem v3_at (r : Fin 10000) (j : Fin 16) : val_main_v3 (F := Ideal) x3 (ix2 r j) = x3 (ix1 j) := by
  rw [val_main_v3_apply, val_main_v2_apply]
  exact congrArg x3 (by idx1)

theorem v5_at (r : Fin 10000) (j : Fin 16) : val_main_v5 (F := Ideal) x0 x1 x2 x3 (ix2 r j) = h1 x0 x1 x2 x3 r j := by
  rw [val_main_v5_apply, val_main_v4_apply, v1_at, v3_at, val_main_call0_v0_apply, val_main_call0_cst_apply,
    Ideal.ofBits_def, Ideal.maximumf_def, Ideal.addf_def]
  rfl

theorem v6_at (k : Fin 10000) (q : Fin 16) : val_main_v6 (F := Ideal) x0 x1 x2 x3 x4 (ix2 k q) = s2 x0 x1 x2 x3 x4 k q := by
  rw [val_main_v6_apply]; unfold s2
  refine Finset.sum_congr rfl fun j _ => ?_
  exact congrArg₂ (· * ·)
    ((congrArg (val_main_v5 (F := Ideal) x0 x1 x2 x3) (show lidx_main_v6 (ix2 k q) j = ix2 k j by idx2)).trans (v5_at x0 x1 x2 x3 k j))
    (congrArg x4 (by idx2))

theorem v9_at (r : Fin 10000) (q : Fin 16) : val_main_v9 (F := Ideal) x5 (ix2 r q) = x5 (ix1 q) := by
  rw [val_main_v9_apply, val_main_v8_apply]
  exact congrArg x5 (by idx1)

theorem v10_at (r : Fin 10000) (q : Fin 16) :
    val_main_v10 (F := Ideal) x0 x1 x2 x3 x4 x5 (ix2 r q) = h2 x0 x1 x2 x3 x4 x5 r q := by
  rw [val_main_v10_apply, val_main_v7_apply, v9_at, Ideal.addf_def]; unfold h2
  refine congrArg (· + x5 (ix1 q)) (Finset.sum_congr rfl fun k _ => ?_)
  exact congrArg₂ (· * ·) (congrArg x1 (by idx2))
    ((congrArg (val_main_v6 (F := Ideal) x0 x1 x2 x3 x4) (show ridx_main_v7 (ix2 r q) k = ix2 k q by idx2)).trans (v6_at x0 x1 x2 x3 x4 k q))

theorem v11_at (q : Fin 16) (r : Fin 10000) :
    val_main_v11 (F := Ideal) x0 x1 x2 x3 x4 x5 (ix2 q r) = h2 x0 x1 x2 x3 x4 x5 r q := by
  rw [val_main_v11_apply]
  exact (congrArg (val_main_v10 (F := Ideal) x0 x1 x2 x3 x4 x5) (show idx_main_v11 (ix2 q r) = ix2 r q by idx2)).trans
    (v10_at x0 x1 x2 x3 x4 x5 r q)

/-- The host's maximum along the long axis of a 16 × 10000 array, from its initial value: the fold of max over the row. -/
theorem hostRowMax_apply (x : (⟨2, ![16, 10000]⟩ : Shape).Idx → EReal) (init : S_.Idx → EReal) (q : Fin 16) :
    Host.reduce (FloatOps.maximumf (F := Ideal) (φ := .f32)) x init reducesTo_S16x10000_S16_d1 h_S_ (ix1 q)
      = (Finset.univ : Finset (Fin 10000)).fold max (init (Shape.Idx.first h_S_)) (fun k => x (ix2 q k)) := by
  refine (Host.reduce_eq_fold_single (FloatOps.maximumf (F := Ideal) (φ := .f32)) x init reducesTo_S16x10000_S16_d1 (by decide) h_S_ (ix1 q)).trans ?_
  refine Finset.fold_congr fun k _ => congrArg x ?_
  idx2

theorem c1v0_at (q : Fin 16) : val_main_call1_v0 (F := Ideal) x0 x1 x2 x3 x4 x5 (ix1 q) = colMax x0 x1 x2 x3 x4 x5 q := by
  unfold val_main_call1_v0
  rw [hostRowMax_apply, val_main_call1_cst_apply, Ideal.ofBits_def]
  unfold colMax
  exact Finset.fold_congr fun k _ => v11_at x0 x1 x2 x3 x4 x5 q k

theorem c1v4_at (q : Fin 16) (r : Fin 10000) :
    val_main_call1_v4 (F := Ideal) x0 x1 x2 x3 x4 x5 (ix2 q r) = max ninf32 (colMax x0 x1 x2 x3 x4 x5 q) := by
  rw [val_main_call1_v4_apply, val_main_call1_v3_apply, val_main_call1_v2_apply, val_main_call1_v1_apply,
    val_main_call1_cst_0_apply, Ideal.ofBits_def, Ideal.maximumf_def]
  exact congrArg (max ninf32) ((congrArg (val_main_call1_v0 (F := Ideal) x0 x1 x2 x3 x4 x5) (by idx1)).trans (c1v0_at x0 x1 x2 x3 x4 x5 q))

theorem c1v5_at (q : Fin 16) (r : Fin 10000) :
    val_main_call1_v5 (F := Ideal) x0 x1 x2 x3 x4 x5 (ix2 q r)
      = h2 x0 x1 x2 x3 x4 x5 r q - max ninf32 (colMax x0 x1 x2 x3 x4 x5 q) := by
  rw [val_main_call1_v5_apply, v11_at, c1v4_at, Ideal.subf_def]

theorem c1v7_at (q : Fin 16) :
    val_main_call1_v7 (F := Ideal) x0 x1 x2 x3 x4 x5 (ix1 q)
      = zero32 + ∑ k : Fin 10000, Ideal.exp (h2 x0 x1 x2 x3 x4 x5 k q - max ninf32 (colMax x0 x1 x2 x3 x4 x5 q)) := by
  rw [val_main_call1_v7_apply, val_main_call1_cst_1_apply, Ideal.ofBits_def]
  refine congrArg (zero32 + ·) (Finset.sum_congr rfl fun k _ => ?_)
  rw [show idx_main_call1_v7 (ix1 q) k = ix2 q k by idx2, val_main_call1_v6_apply, c1v5_at, Ideal.hostUnary_exp_def]

theorem c1v10_at (q : Fin 16) (r : Fin 10000) :
    val_main_call1_v10 (F := Ideal) x0 x1 x2 x3 x4 x5 (ix2 q r)
      = Ideal.log (zero32 + ∑ k : Fin 10000, Ideal.exp (h2 x0 x1 x2 x3 x4 x5 k q - max ninf32 (colMax x0 x1 x2 x3 x4 x5 q))) := by
  rw [val_main_call1_v10_apply, val_main_call1_v9_apply, val_main_call1_v8_apply, Ideal.hostUnary_log_def]
  exact congrArg Ideal.log ((congrArg (val_main_call1_v7 (F := Ideal) x0 x1 x2 x3 x4 x5) (by idx1)).trans (c1v7_at x0 x1 x2 x3 x4 x5 q))

/-- THE REFERENCE AT AN INDEX. -/
theorem v13_at (r : Fin 10000) (q : Fin 16) :
    val_main_v13 (F := Ideal) x0 x1 x2 x3 x4 x5 (ix2 r q) = referenceOut x0 x1 x2 x3 x4 x5 r q := by
  rw [val_main_v13_apply, show idx_main_v13 (ix2 r q) = ix2 q r by idx2, val_main_v12_apply, c1v5_at, c1v10_at, Ideal.subf_def]
  rfl

end Cert.ReferenceIdeal.At

end
-- ==== Proof.FiniteInputs.lean ====
/-
  The precondition read back: when the printed predicate "every input entry has absolute value below +∞" is one, every
  entry of every input is a real number (an extended real whose absolute value is below +∞ is neither infinity).
-/
import proofs.«120118_g652835029062_cont_sun_m_363_5_alg».proof.Pre_finite_inputs
import proofs.«120118_g652835029062_cont_sun_m_363_5_alg».proof.Proof.LibBatchNorm
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.LibBatchNorm

instance : Subsingleton S_.Idx := ⟨fun a b => funext fun d => d.elim0⟩

theorem pinf32_eq : Ideal.ofBits .f32 0x7F800000#32 = ⊤ := by simp [Ideal.ofBits, Ideal.ieee]

/-- An extended real whose absolute value compares below +∞ is a real number. -/
theorem isReal_of_abs_lt (x : EReal) (h : Ideal.cmp .olt (max x (-x)) (Ideal.ofBits .f32 0x7F800000#32) = 1#1) : IsReal x := by
  rw [pinf32_eq] at h
  induction x using EReal.rec with
  | bot => exfalso; simp [Ideal.cmp] at h
  | coe r => exact ⟨r, rfl⟩
  | top => exfalso; simp [Ideal.cmp] at h

variable [Facts]

/-- THE PRECONDITION, READ BACK: every entry of every input is a real number. -/
theorem all_real (x0 : FVec Ideal S10000x128 .f32) (x1 : FVec Ideal S10000x10000 .f32) (x2 : FVec Ideal S128x16 .f32)
    (x3 : FVec Ideal S16 .f32) (x4 : FVec Ideal S16x16 .f32) (x5 : FVec Ideal S16 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) := by
  have h0 := congrFun h ValueIdx.ix0
  unfold fn fn_part1 at h0
  dsimp only at h0
  obtain ⟨h23, h27⟩ := IntOp.andi_eq_one.1 (show IntOp.andi _ _ = 1#1 from h0)
  obtain ⟨h18, h22⟩ := IntOp.andi_eq_one.1 (show IntOp.andi _ _ = 1#1 from h23)
  obtain ⟨h13, h17⟩ := IntOp.andi_eq_one.1 (show IntOp.andi _ _ = 1#1 from h18)
  obtain ⟨h8, h12⟩ := IntOp.andi_eq_one.1 (show IntOp.andi _ _ = 1#1 from h13)
  obtain ⟨h3, h7⟩ := IntOp.andi_eq_one.1 (show IntOp.andi _ _ = 1#1 from h8)
  exact ⟨fun i => isReal_of_abs_lt _ (Host.reduce_andi_all _ _ _ _ _ h3 i),
    fun i => isReal_of_abs_lt _ (Host.reduce_andi_all _ _ _ _ _ h7 i),
    fun i => isReal_of_abs_lt _ (Host.reduce_andi_all _ _ _ _ _ h12 i),
    fun i => isReal_of_abs_lt _ (Host.reduce_andi_all _ _ _ _ _ h17 i),
    fun i => isReal_of_abs_lt _ (Host.reduce_andi_all _ _ _ _ _ h22 i),
    fun i => isReal_of_abs_lt _ (Host.reduce_andi_all _ _ _ _ _ h27 i)⟩

end Cert.FiniteInputs

end
-- ==== Proof.lean ====
/-
  A two-layer graph convolution with a dense adjacency matrix, followed by a log-softmax over the nodes:
      out = log_softmax_over_rows( A·(relu(A·(X·W1) + b1)·W2) + b2 ),
  X : 10000 × 128, A : 10000 × 10000, W1 : 128 × 16, W2 : 16 × 16, b1, b2 : 16.

  The kernel walks a 2 × 25 grid over 400-row blocks of A.  At the first point it stores s1 = X·W1 into a scratch
  buffer; at every point of phase 0 it stores one block of s2 = relu(A·s1 + b1)·W2 into a second scratch buffer; at
  every point of phase 1 it stores one block of h2 = A·s2 + b2 into the output buffer, which stays on the chip for
  the whole grid; at the last point it replaces the output buffer by  h2 − (log Σ exp(h2 − M) + M),  M the column
  maxima, and the buffer is written back once.  The reference computes the same four products in the same grouping
  and then jax's log-softmax,  (h2 − M) − log Σ exp(h2 − M).

  Both programs are therefore the same sums of products; they differ only in the grouping of the last subtraction,
  which agrees on the extended reals because every entry of h2 is a real number when the inputs are finite (the one
  place the precondition is used).  What each scratch buffer and the output buffer hold from point to point is an
  invariant over the grid (the rows written so far agree with s2, with h2), stated relationally because the first
  store into each buffer covers only 400 of its 10000 rows; the invariant, run through the pipeline's launch theorem,
  gives both kernels' frames and the idealized kernel's result, and the reference's run and its index-by-index
  reading give the reference's.
-/
import proofs.«120118_g652835029062_cont_sun_m_363_5_alg».proof.Defs
import proofs.«120118_g652835029062_cont_sun_m_363_5_alg».proof.Proof.Gen.Kernel
import proofs.«120118_g652835029062_cont_sun_m_363_5_alg».proof.Proof.Gen.KernelIdeal
import proofs.«120118_g652835029062_cont_sun_m_363_5_alg».proof.Proof.Gen.ReferenceIdeal
import proofs.«120118_g652835029062_cont_sun_m_363_5_alg».proof.Proof.Gen.Pre_finite_inputs
import proofs.«120118_g652835029062_cont_sun_m_363_5_alg».proof.Proof.BRun
import proofs.«120118_g652835029062_cont_sun_m_363_5_alg».proof.Proof.KAt
import proofs.«120118_g652835029062_cont_sun_m_363_5_alg».proof.Proof.RefAt
import proofs.«120118_g652835029062_cont_sun_m_363_5_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Body.frame m ρ

/-- So does the kernel read at the exact reals. -/
theorem frame_kernelIdeal : Cert.frame_KernelIdeal := fun m ρ _ => Cert.KernelIdeal.Body.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- At the exact reals, from memories agreeing on the finite arguments, the kernel's result array and the reference's
    hold the same extended reals: index by index both are the log-softmax over the nodes of A·(relu(A·(X·W1) + b1)·W2) + b2,
    grouped in two ways that agree on real entries. -/
theorem algebraic : Cert.algebraic_KernelIdeal_ReferenceIdeal := by
  intro m ρ m' ρ' hpre hagree
  refine ⟨fun c => Cert.KernelIdeal.Body.Out m c, Cert.KernelIdeal.Body.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v13_eq, (hagree c).1, (hagree c).2.1, (hagree c).2.2.1, (hagree c).2.2.2.1,
    (hagree c).2.2.2.2.1, (hagree c).2.2.2.2.2]
  funext i
  obtain ⟨r, q, rfl⟩ : ∃ (r : Fin 10000) (q : Fin 16), i = ix2 r q := ⟨i 0, i 1, eq_ix2 i⟩
  obtain ⟨h0, h1, h2, h3, h4, h5⟩ := Cert.FiniteInputs.all_real _ _ _ _ _ _ (hpre c)
  exact (Cert.ReferenceIdeal.At.v13_at _ _ _ _ _ _ r q).trans
    ((Cert.GcnSpec.kernelOut_eq_referenceOut _ _ _ _ _ _ h0 h1 h2 h3 h4 h5 r q).symm.trans
      (Cert.KernelIdeal.At.Out_at m c r q).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
